-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x128 : Shape := ⟨3, ![128, 512, 128]⟩
abbrev S128x128 : Shape := ⟨2, ![128, 128]⟩
abbrev S128 : Shape := ⟨1, ![128]⟩
abbrev S128x64 : Shape := ⟨2, ![128, 64]⟩
abbrev S_ : Shape := ⟨0, ![]⟩

class Facts : Prop where
  bcast_S_S128x512x128 : S_.BroadcastsInDim S128x512x128 (![] : Fin 0 → Fin S128x512x128.rank)
  reducesTo_S128x512x128_S_d0_1_2 : S128x512x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_arg4 : FVec F S128x64 .f32) (main_arg5 : FVec F S128x64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  main_v28

def fn {F : FTy → Type} [FloatOps F] (main_arg0 : FVec F S128x512x128 .f32) (main_arg1 : FVec F S128x128 .f32) (main_arg2 : FVec F S128 .f32) (main_arg3 : FVec F S128x64 .f32) (main_arg4 : FVec F S128x64 .f32) (main_arg5 : FVec F S128x64 .f32) : IVec S_ 1 :=
  let main_v0 : FVec F S128x512x128 .f32 := Host.absf main_arg0
  let main_cst : FVec F S_ .f32 := constant S_ .f32 0x7F800000#32
  let main_v1 : FVec F S128x512x128 .f32 := broadcastInDim S128x512x128 ![] bcast_S_S128x512x128 main_cst
  let main_v2 : IVec S128x512x128 1 := cmpf .olt main_v0 main_v1
  let main_c : IVec S_ 1 := constantI S_ 1 1#1
  let main_v3 : IVec S_ 1 := (fun x v => Host.reduce IntOp.andi x v reducesTo_S128x512x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_v13 main_v16
-- ==== Kernel.lean ====
abbrev S128x512x128 : Shape := ⟨3, ![128, 512, 128]⟩
abbrev S128x128 : Shape := ⟨2, ![128, 128]⟩
abbrev S128 : Shape := ⟨1, ![128]⟩
abbrev S128x64 : Shape := ⟨2, ![128, 64]⟩
abbrev S128x512x64 : Shape := ⟨3, ![128, 512, 64]⟩
abbrev S4x512x128 : Shape := ⟨3, ![4, 512, 128]⟩
abbrev S4x512x64 : Shape := ⟨3, ![4, 512, 64]⟩
abbrev S2048x128 : Shape := ⟨2, ![2048, 128]⟩
abbrev S1x128 : Shape := ⟨2, ![1, 128]⟩
abbrev S2048x64 : Shape := ⟨2, ![2048, 64]⟩
abbrev S512x512 : Shape := ⟨2, ![512, 512]⟩
abbrev S1x512x64 : Shape := ⟨3, ![1, 512, 64]⟩
abbrev S512x64 : Shape := ⟨2, ![512, 64]⟩
abbrev S64x512 : Shape := ⟨2, ![64, 512]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S128x512x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S128x64, .f32⟩
  | .hbm, ⟨5, _⟩ => ⟨S128x64, .f32⟩
  | .hbm, ⟨6, _⟩ => ⟨S128x512x64, .f32⟩
  | .local _ .vmem, ⟨0, _⟩ => ⟨S4x512x128, .f32⟩
  | .local _ .vmem, ⟨1, _⟩ => ⟨S4x512x128, .f32⟩
  | .local _ .vmem, ⟨2, _⟩ => ⟨S128x128, .f32⟩
  | .local _ .vmem, ⟨3, _⟩ => ⟨S128, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | .local _ .vmem, ⟨7, _⟩ => ⟨S4x512x64, .f32⟩
  | .local _ .vmem, ⟨8, _⟩ => ⟨S4x512x64, .f32⟩
  | .local _ .vmem, ⟨9, _⟩ => ⟨S4x512x64, .f32⟩
  | .local _ .vmem, ⟨10, _⟩ => ⟨S4x512x64, .f32⟩
  | .local _ .vmem, ⟨11, _⟩ => ⟨S4x512x64, .f32⟩
  | _, _ => ⟨S128x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v39 : BitVec 32 := Scalar.addi c0_i32 c4_i32
  let c1_i32 : BitVec 32 := 1#32
  ⟨c0_i32, v39, c1_i32⟩
def k0_off1 (k0_t1 : Fin k0_t1_loop.trips) : Fin 3 → Nat :=
  let c0_i32 : BitVec 32 := 0#32
  let c1_i32 : BitVec 32 := 1#32
  let arg11 : BitVec 32 := Scf.iv c0_i32 c1_i32 k0_t1
  let v40 : Index := Scalar.indexCast arg11
  let c0_25 : Index := 0#32
  let c0_26 : Index := 0#32
  ![v40.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S4x512x128_S4x512x128_0_0_0 : ∀ a, (![0, 0, 0] : Fin 3 → Nat) a + S4x512x128.size a ≤ S4x512x128.size a
  h_S4x512x128 : 0 < S4x512x128.numel
  shapeCasts_S4x512x128_S2048x128 : S4x512x128.ShapeCasts S2048x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S128x64_S128x64_0_0 : ∀ a, (![0, 0] : Fin 2 → Nat) a + S128x64.size a ≤ S128x64.size a
  h_S128x64 : 0 < S128x64.numel
  shapeCasts_S2048x64_S4x512x64 : S2048x64.ShapeCasts S4x512x64
  inb_S4x512x64_S4x512x64_0_0_0 : ∀ a, (![0, 0, 0] : Fin 3 → Nat) a + S4x512x64.size a ≤ S4x512x64.size a
  h_S4x512x64 : 0 < S4x512x64.numel
  shapeCasts_S4x512x64_S4x512x64 : S4x512x64.ShapeCasts S4x512x64
  iota_S512x512_d0_w32 : S512x512.Iotas .tc 32 [0]
  iota_S512x512_d1_w32 : S512x512.Iotas .tc 32 [1]
  h_S1x512x64 : 0 < S1x512x64.numel
  shapeCasts_S1x512x64_S512x64 : S1x512x64.ShapeCasts S512x64
  transposes_S512x64_p1_0_S64x512 : S512x64.Transposes [1, 0] S64x512
  reduces_S512x512_S512 : S512x512.Reduces [1] S512
  shapeCasts_S512_S512x1 : S512.ShapeCasts S512x1
  broadcasts_S512x1_S512x512 : S512x1.Broadcasts S512x512
  broadcasts_S512x1_S512x64 : S512x1.Broadcasts S512x64
  shapeCasts_S512x64_S1x512x64 : S512x64.ShapeCasts S1x512x64
  dot_S2048x128_S128x128_S2048x128_1_0_0_1_n_n_wf : DotDims.WF S2048x128 S128x128 S2048x128 [1] [0] [0] [1] [] []
  dot_S2048x128_S128x64_S2048x64_1_0_0_1_n_n_wf : DotDims.WF S2048x128 S128x64 S2048x64 [1] [0] [0] [1] [] []
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  hrank0 : 0 < grid0.rank
  k0_t1_ok : k0_t1_loop.OK
  k0_off1_inb : ∀ k0_t1 : Fin k0_t1_loop.trips, ∀ a, (k0_off1 k0_t1) a + S1x512x64.size a ≤ S4x512x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x128.size a ≤ S128x512x128.size a
  hwx0_0 : ∀ i : grid0.Coords, EltTy.bits .f32 = 32 ∨ (Rect.block (s := S128x512x128) S4x512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x512x64.size a ≤ S128x512x64.size a
  hwx0_6 : ∀ i : grid0.Coords, EltTy.bits .f32 = 32 ∨ (Rect.block (s := S128x512x64) S4x512x64.size (cc0_transform_6 i) (hinb0_6 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_arg0) S4x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S4x512x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S128x512x128 : Shape := ⟨3, ![128, 512, 128]⟩
abbrev S128x128 : Shape := ⟨2, ![128, 128]⟩
abbrev S128 : Shape := ⟨1, ![128]⟩
abbrev S128x64 : Shape := ⟨2, ![128, 64]⟩
abbrev S1x1x128 : Shape := ⟨3, ![1, 1, 128]⟩
abbrev S_ : Shape := ⟨0, ![]⟩
abbrev S128x512x64 : Shape := ⟨3, ![128, 512, 64]⟩
abbrev S128x512x512 : Shape := ⟨3, ![128, 512, 512]⟩
abbrev S512x512 : Shape := ⟨2, ![512, 512]⟩
abbrev S128x512 : Shape := ⟨2, ![128, 512]⟩
abbrev S128x512x1 : Shape := ⟨3, ![128, 512, 1]⟩

abbrev nBuf : Space → Nat
  | .hbm => 57
  | .vmem => 0
  | .smem => 0
  | _ => 0

abbrev bufTy : (tb : Table) → Fin (tcTables nBuf tb) → BufTy
  | .hbm, ⟨0, _⟩ => ⟨S128x512x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S128x64, .f32⟩
  | .hbm, ⟨5, _⟩ => ⟨S128x64, .f32⟩
  | .hbm, ⟨6, _⟩ => ⟨S128x512x128, .f32⟩
  | .hbm, ⟨7, _⟩ => ⟨S1x1x128, .f32⟩
  | .hbm, ⟨8, _⟩ => ⟨S128x512x128, .f32⟩
  | .hbm, ⟨9, _⟩ => ⟨S128x512x128, .f32⟩
  | .hbm, ⟨10, _⟩ => ⟨S128x512x128, .f32⟩
  | .hbm, ⟨11, _⟩ => ⟨S128x512x128, .f32⟩
  | .hbm, ⟨12, _⟩ => ⟨S_, .f32⟩
  | .hbm, ⟨13, _⟩ => ⟨S128x512x128, .f32⟩
  | .hbm, ⟨14, _⟩ => ⟨S128x512x128, .f32⟩
  | .hbm, ⟨15, _⟩ => ⟨S_, .f32⟩
  | .hbm, ⟨16, _⟩ => ⟨S128x512x128, .f32⟩
  | .hbm, ⟨17, _⟩ => ⟨S128x512x128, .f32⟩
  | .hbm, ⟨18, _⟩ => ⟨S128x512x128, .f32⟩
  | .hbm, ⟨19, _⟩ => ⟨S128x512x64, .f32⟩
  | .hbm, ⟨20, _⟩ => ⟨S128x512x64, .f32⟩
  | .hbm, ⟨21, _⟩ => ⟨S128x512x64, .f32⟩
  | .hbm, ⟨22, _⟩ => ⟨S128x512x512, .f32⟩
  | .hbm, ⟨23, _⟩ => ⟨S_, .f32⟩
  | .hbm, ⟨24, _⟩ => ⟨S128x512x512, .f32⟩
  | .hbm, ⟨25, _⟩ => ⟨S128x512x512, .f32⟩
  | .hbm, ⟨26, _⟩ => ⟨S_, .i1⟩
  | .hbm, ⟨27, _⟩ => ⟨S512x512, .i1⟩
  | .hbm, ⟨28, _⟩ => ⟨S512x512, .i32⟩
  | .hbm, ⟨29, _⟩ => ⟨S_, .i32⟩
  | .hbm, ⟨30, _⟩ => ⟨S512x512, .i32⟩
  | .hbm, ⟨31, _⟩ => ⟨S512x512, .i32⟩
  | .hbm, ⟨32, _⟩ => ⟨S512x512, .i32⟩
  | .hbm, ⟨33, _⟩ => ⟨S512x512, .i1⟩
  | .hbm, ⟨34, _⟩ => ⟨S_, .i1⟩
  | .hbm, ⟨35, _⟩ => ⟨S512x512, .i1⟩
  | .hbm, ⟨36, _⟩ => ⟨S512x512, .i1⟩
  | .hbm, ⟨37, _⟩ => ⟨S_, .f32⟩
  | .hbm, ⟨38, _⟩ => ⟨S_, .f32⟩
  | .hbm, ⟨39, _⟩ => ⟨S128x512x512, .i1⟩
  | .hbm, ⟨40, _⟩ => ⟨S128x512x512, .f32⟩
  | .hbm, ⟨41, _⟩ => ⟨S128x512x512, .f32⟩
  | .hbm, ⟨42, _⟩ => ⟨S_, .f32⟩
  | .hbm, ⟨43, _⟩ => ⟨S128x512, .f32⟩
  | .hbm, ⟨44, _⟩ => ⟨S_, .f32⟩
  | .hbm, ⟨45, _⟩ => ⟨S128x512, .f32⟩
  | .hbm, ⟨46, _⟩ => ⟨S128x512, .f32⟩
  | .hbm, ⟨47, _⟩ => ⟨S128x512x1, .f32⟩
  | .hbm, ⟨48, _⟩ => ⟨S128x512x512, .f32⟩
  | .hbm, ⟨49, _⟩ => ⟨S128x512x512, .f32⟩
  | .hbm, ⟨50, _⟩ => ⟨S128x512x512, .f32⟩
  | .hbm, ⟨51, _⟩ => ⟨S_, .f32⟩
  | .hbm, ⟨52, _⟩ => ⟨S128x512, .f32⟩
  | .hbm, ⟨53, _⟩ => ⟨S128x512x1, .f32⟩
  | .hbm, ⟨54, _⟩ => ⟨S128x512x512, .f32⟩
  | .hbm, ⟨55, _⟩ => ⟨S128x512x512, .f32⟩
  | .hbm, ⟨56, _⟩ => ⟨S128x512x64, .f32⟩
  | _, _ => ⟨S128x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_call0_v0 : Ref sig .tc := ⟨.hbm, 28, rfl⟩
abbrev main_call0_c : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_0 : Ref sig .tc := ⟨.hbm, 34, rfl⟩
abbrev main_call0_v5 : Ref sig .tc := ⟨.hbm, 35, rfl⟩
abbrev main_v18 : Ref sig .tc := ⟨.hbm, 36, rfl⟩
abbrev main_cst_2 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_cst_4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S128x512x128_0_1_2 : S1x1x128.BroadcastsInDim S128x512x128 (![0, 1, 2] : Fin 3 → Fin S128x512x128.rank)
  bcast_S_S128x512x128 : S_.BroadcastsInDim S128x512x128 (![] : Fin 0 → Fin S128x512x128.rank)
  bcast_S_S128x512x512 : S_.BroadcastsInDim S128x512x512 (![] : Fin 0 → Fin S128x512x512.rank)
  bcast_S_S512x512 : S_.BroadcastsInDim S512x512 (![] : Fin 0 → Fin S512x512.rank)
  bcast_S512x512_S128x512x512_1_2 : S512x512.BroadcastsInDim S128x512x512 (![1, 2] : Fin 2 → Fin S128x512x512.rank)
  reducesTo_S128x512x512_S128x512_d2 : S128x512x512.ReducesTo [2] S128x512
  h_S_ : 0 < S_.numel
  bcast_S_S128x512 : S_.BroadcastsInDim S128x512 (![] : Fin 0 → Fin S128x512.rank)
  bcast_S128x512_S128x512x1_0_1 : S128x512.BroadcastsInDim S128x512x1 (![0, 1] : Fin 2 → Fin S128x512x1.rank)
  bcast_S128x512x1_S128x512x512_0_1_2 : S128x512x1.BroadcastsInDim S128x512x512 (![0, 1, 2] : Fin 3 → Fin S128x512x512.rank)
  dot_S128x512x128_S128x128_S128x512x128_2_0_01_1_n_n_wf : DotDims.WF S128x512x128 S128x128 S128x512x128 [2] [0] [0, 1] [1] [] []
  dot_S128x512x128_S128x64_S128x512x64_2_0_01_1_n_n_wf : DotDims.WF S128x512x128 S128x64 S128x512x64 [2] [0] [0, 1] [1] [] []
  dot_S128x512x64_S128x512x64_S128x512x512_2_2_1_1_0_0_wf : DotDims.WF S128x512x64 S128x512x64 S128x512x512 [2] [2] [1] [1] [0] [0]
  dot_S128x512x512_S128x512x64_S128x512x64_2_1_1_2_0_0_wf : DotDims.WF S128x512x512 S128x512x64 S128x512x64 [2] [1] [1] [2] [0] [0]

variable [Facts₀]

def dot_S128x512x128_S128x128_S128x512x128_2_0_01_1_n_n : DotDims S128x512x128 S128x128 S128x512x128 where
  lhsContracting := [2]
  rhsContracting := [0]
  lhsNonContracting := [0, 1]
  rhsNonContracting := [1]
  lhsBatch := []
  rhsBatch := []
  wf := dot_S128x512x128_S128x128_S128x512x128_2_0_01_1_n_n_wf
def dot_S128x512x128_S128x64_S128x512x64_2_0_01_1_n_n : DotDims S128x512x128 S128x64 S128x512x64 where
  lhsContracting := [2]
  rhsContracting := [0]
  lhsNonContracting := [0, 1]
  rhsNonContracting := [1]
  lhsBatch := []
  rhsBatch := []
  wf := dot_S128x512x128_S128x64_S128x512x64_2_0_01_1_n_n_wf
def dot_S128x512x64_S128x512x64_S128x512x512_2_2_1_1_0_0 : DotDims S128x512x64 S128x512x64 S128x512x512 where
  lhsContracting := [2]
  rhsContracting := [2]
  lhsNonContracting := [1]
  rhsNonContracting := [1]
  lhsBatch := [0]
  rhsBatch := [0]
  wf := dot_S128x512x64_S128x512x64_S128x512x512_2_2_1_1_0_0_wf
def dot_S128x512x512_S128x512x64_S128x512x64_2_1_1_2_0_0 : DotDims S128x512x512 S128x512x64 S128x512x64 where
  lhsContracting := [2]
  rhsContracting := [1]
  lhsNonContracting := [1]
  rhsNonContracting := [2]
  lhsBatch := [0]
  rhsBatch := [0]
  wf := dot_S128x512x512_S128x512x64_S128x512x64_2_1_1_2_0_0_wf

class Facts : Prop extends Facts₀ where

variable [Facts]
-- ==== Proof.KernelBlock.lean ====
/-
  What one grid point of the kernel leaves in its output block, as ONE function of the block's index.

  A grid point handles four batch entries. It first fills three scratch arrays (keys, scaled queries, values:
  each a function of the point's input block and the weights), then visits the four entries in turn; the visit of
  entry b reads row-slab b of each scratch array and writes row-slab b of the output block with the attention
  result of those three slabs. So the output block at (b, r, h) is the attention of slab b, read at (r, h):
  `blockFn` below. The four written slabs tile the block, so every index is covered by exactly the visit of its
  own batch coordinate.
-/
import proofs.«151258_j42262478193015_2_alg».proof.Proof.Gen.KernelIdeal.Value
import Idealize.ShloMosaic.Lib.Pipeline.Value
import Idealize.ShloMosaic.Lib.ValueIdx

set_option maxRecDepth 16384

noncomputable section

namespace Cert.KernelIdeal.Blk

open Cert.KernelIdeal Cert.KernelIdeal.Gen Idealize.ShloMosaic Idealize.ShloMosaic.TcCoe Idealize.SL.Sem Idealize.ShloMosaic.ValueIdx

variable {F : FTy → Type} [FloatOps F] [Named F]

/-- Row-slab `b` of a [4, 512, 64] array, as a [1, 512, 64] array. -/
def slab {α : Type} (Z : S4x512x64.Idx → α) (b : Fin 4) : S1x512x64.Idx → α :=
  fun x => Z (ix3 b (x 1) (x 2))

/-- The output block as one function of its index: at (b, r, h) the body's per-entry result on slab b of the
    scaled queries `Zq`, the keys `Zk` and the values `Zv`, read at (0, r, h). -/
def blockFn (Zk Zq Zv : Vec F S4x512x64 .f32) : Vec F S4x512x64 .f32 :=
  fun y => k0_pay2 (slab Zq (y 0)) (slab Zk (y 0)) (slab Zv (y 0)) (ix3 (0 : Fin 1) (y 1) (y 2))

/-- A load of one row-slab (a unit-stride box one entry thick, starting at row 0 and channel 0) reads the slab of
    the batch coordinate the box sits at. -/
theorem ld_slab {α : Type} (Z : S4x512x64.Idx → α) (off : Fin 3 → ℕ)
    (inb : ∀ a, off a + S1x512x64.size a ≤ S4x512x64.size a) (h1 : off 1 = 0) (h2 : off 2 = 0)
    (x : S1x512x64.Idx) :
    (fun x' : S1x512x64.Idx => Z ((Rect.unit (s := S4x512x64) off S1x512x64.size inb).idx x'))
      = slab Z ((Rect.unit (s := S4x512x64) off S1x512x64.size inb).emb x 0) := by
  funext x'
  unfold slab
  refine congrArg Z (funext fun a => Fin.ext ?_)
  have hx : (x 0).val = 0 := by have := (x 0).isLt; change (x 0).val < 1 at this; omega
  have hx' : (x' 0).val = 0 := by have := (x' 0).isLt; change (x' 0).val < 1 at this; omega
  match a with
  | ⟨0, _⟩ =>
    show off 0 + 1 * (x' 0).val = off 0 + 1 * (x 0).val
    rw [hx, hx']
  | ⟨1, _⟩ =>
    show off 1 + 1 * (x' 1).val = (x' 1).val
    rw [h1]; omega
  | ⟨2, _⟩ =>
    show off 2 + 1 * (x' 2).val = (x' 2).val
    rw [h2]; omega

/-- The visit of one batch entry writes, at each index of its slab, the block function's value there. -/
theorem visit_agrees (Zk Zq Zv : Vec F S4x512x64 .f32) (off : Fin 3 → ℕ)
    (inb : ∀ a, off a + S1x512x64.size a ≤ S4x512x64.size a) (h1 : off 1 = 0) (h2 : off 2 = 0)
    (x : S1x512x64.Idx) :
    k0_pay2 (fun x' => Zq ((Rect.unit (s := S4x512x64) off S1x512x64.size inb).idx x'))
        (fun x' => Zk ((Rect.unit (s := S4x512x64) off S1x512x64.size inb).idx x'))
        (fun x' => Zv ((Rect.unit (s := S4x512x64) off S1x512x64.size inb).idx x')) x
      = blockFn Zk Zq Zv ((Rect.unit (s := S4x512x64) off S1x512x64.size inb).emb x) := by
  unfold blockFn
  rw [ld_slab Zq off inb h1 h2 x, ld_slab Zk off inb h1 h2 x, ld_slab Zv off inb h1 h2 x]
  refine congrArg _ (funext fun a => Fin.ext ?_)
  have hx : (x 0).val = 0 := by have := (x 0).isLt; change (x 0).val < 1 at this; omega
  match a with
  | ⟨0, _⟩ => exact hx
  | ⟨1, _⟩ =>
    show (x 1).val = off 1 + 1 * (x 1).val
    rw [h1]; omega
  | ⟨2, _⟩ =>
    show (x 2).val = off 2 + 1 * (x 2).val
    rw [h2]; omega

/-- Every piece written by the first `n` visits agrees with the block function on its slab, whatever the three
    scratch arrays hold (`Zk`, `Zq`, `Zv` are what they read as). -/
theorem visits_agree (𝒱 : Variants) (c : Dev nD) (bd : Option 𝒱.V) (i : grid0.Coords) (arg1 : Memref sig .tc .vmem S4x512x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S4x512x64 .f32) (harg7 : arg7.IsWhole) (arg8 : Memref sig .tc .vmem S4x512x64 .f32) (harg8 : arg8.IsWhole) (arg9 : Memref sig .tc .vmem S4x512x64 .f32) (harg9 : arg9.IsWhole) (arg10 : Memref sig .tc .vmem S4x512x64 .f32) (harg10 : arg10.IsWhole)
    (X8 : BufTy.Contents (Elt F) arg8.view.ty) (X9 : BufTy.Contents (Elt F) arg9.view.ty) (X10 : BufTy.Contents (Elt F) arg10.view.ty)
    (Zk Zq Zv : Vec F S4x512x64 .f32)
    (hk : arg8.view.read (Elt F) X8 = Zk) (hq : arg9.view.read (Elt F) X9 = Zq) (hv : arg10.view.read (Elt F) X10 = Zv) :
    ∀ n : ℕ, ∀ p ∈ pb_k0_t1 (F := F) 𝒱 c bd i arg1 harg1 arg2 harg2 arg3 harg3 arg4 harg4 arg5 harg5 arg6 harg6 arg7 harg7 arg8 harg8 arg9 harg9 arg10 harg10 X8 X9 X10 n,
      ∀ x : p.1.shape.Idx, p.2 x = blockFn Zk Zq Zv (p.1.emb x)
  | 0 => fun p hp => by
    rw [pb_k0_t1.eq_1] at hp
    exact absurd hp List.not_mem_nil
  | n + 1 => fun p hp => by
    rw [pb_k0_t1.eq_2] at hp
    unfold pb_k0_t1Step at hp
    split at hp
    · rcases List.mem_append.mp hp with h | h
      · unfold tripL_k0_t1 at h
        unfold trip_k0_t1 at h
        dsimp only at h
        obtain rfl := List.mem_singleton.mp h
        intro x
        subst hk hq hv
        exact visit_agrees _ _ _ (k0_off1 _) (k0_off1_inb _) rfl rfl x
      · exact visits_agree 𝒱 c bd i arg1 harg1 arg2 harg2 arg3 harg3 arg4 harg4 arg5 harg5 arg6 harg6 arg7 harg7 arg8 harg8 arg9 harg9 arg10 harg10 X8 X9 X10 Zk Zq Zv hk hq hv n p h
    · exact visits_agree 𝒱 c bd i arg1 harg1 arg2 harg2 arg3 harg3 arg4 harg4 arg5 harg5 arg6 harg6 arg7 harg7 arg8 harg8 arg9 harg9 arg10 harg10 X8 X9 X10 Zk Zq Zv hk hq hv n p hp

theorem zeros3 : (![0, 0, 0] : Fin 3 → ℕ) = fun _ => 0 := funext fun a => by fin_cases a <;> rfl
theorem zeros2 : (![0, 0] : Fin 2 → ℕ) = fun _ => 0 := funext fun a => by fin_cases a <;> rfl
theorem zeros1 : (![0] : Fin 1 → ℕ) = fun _ => 0 := funext fun a => by fin_cases a <;> rfl

/-- After the first phase the keys' scratch array reads as the key projection of the point's blocks. -/
theorem keys_read (c : Dev nD) (arg1 : Memref sig .tc .vmem S4x512x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S4x512x64 .f32) (harg7 : arg7.IsWhole) (arg8 : Memref sig .tc .vmem S4x512x64 .f32) (harg8 : arg8.IsWhole) (arg9 : Memref sig .tc .vmem S4x512x64 .f32) (harg9 : arg9.IsWhole) (arg10 : Memref sig .tc .vmem S4x512x64 .f32) (harg10 : arg10.IsWhole) (x0 : Vec F S4x512x128 .f32) (x1 : Vec F S128x128 .f32) (x2 : Vec F S128 .f32) (x3 : Vec F S128x64 .f32) (x4 : Vec F S128x64 .f32) (x5 : Vec F S128x64 .f32) :
    arg8.view.read (Elt F) (arg8.view.writes (Elt F) arg8.view.junk
        (kernelRun0_A.sl.HS0_1 c arg1 harg1 arg2 harg2 arg3 harg3 arg4 harg4 x0 x1 x2 x3))
      = k0_pay4 x0 x1 x2 x3 := by
  rw [View.read_writes_junk_eq_canon]
  unfold kernelRun0_A.sl.HS0_1
  rw [View.canon_unit_zero zeros3]
  simp only [View.readAt_eq_ld, harg1.read_unread, harg2.read_unread, harg3.read_unread, harg4.read_unread,
    View.ld_unit_zero (S := S4x512x128) zeros3, View.ld_unit_zero (S := S128x128) zeros2,
    View.ld_unit_zero (S := S128) zeros1, View.ld_unit_zero (S := S128x64) zeros2]

/-- … the queries' scratch array as the scaled query projection, -/
theorem queries_read (c : Dev nD) (arg1 : Memref sig .tc .vmem S4x512x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S4x512x64 .f32) (harg7 : arg7.IsWhole) (arg8 : Memref sig .tc .vmem S4x512x64 .f32) (harg8 : arg8.IsWhole) (arg9 : Memref sig .tc .vmem S4x512x64 .f32) (harg9 : arg9.IsWhole) (arg10 : Memref sig .tc .vmem S4x512x64 .f32) (harg10 : arg10.IsWhole) (x0 : Vec F S4x512x128 .f32) (x1 : Vec F S128x128 .f32) (x2 : Vec F S128 .f32) (x3 : Vec F S128x64 .f32) (x4 : Vec F S128x64 .f32) (x5 : Vec F S128x64 .f32) :
    arg9.view.read (Elt F) (arg9.view.writes (Elt F) arg9.view.junk
        (kernelRun0_A.sl.HS1_1 c arg1 harg1 arg2 harg2 arg3 harg3 arg5 harg5 x0 x1 x2 x4))
      = k0_pay5 x0 x1 x2 x4 := by
  rw [View.read_writes_junk_eq_canon]
  unfold kernelRun0_A.sl.HS1_1
  rw [View.canon_unit_zero zeros3]
  simp only [View.readAt_eq_ld, harg1.read_unread, harg2.read_unread, harg3.read_unread, harg5.read_unread,
    View.ld_unit_zero (S := S4x512x128) zeros3, View.ld_unit_zero (S := S128x128) zeros2,
    View.ld_unit_zero (S := S128) zeros1, View.ld_unit_zero (S := S128x64) zeros2]

/-- … and the values' scratch array as the value projection. -/
theorem values_read (c : Dev nD) (arg1 : Memref sig .tc .vmem S4x512x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S4x512x64 .f32) (harg7 : arg7.IsWhole) (arg8 : Memref sig .tc .vmem S4x512x64 .f32) (harg8 : arg8.IsWhole) (arg9 : Memref sig .tc .vmem S4x512x64 .f32) (harg9 : arg9.IsWhole) (arg10 : Memref sig .tc .vmem S4x512x64 .f32) (harg10 : arg10.IsWhole) (x0 : Vec F S4x512x128 .f32) (x1 : Vec F S128x128 .f32) (x2 : Vec F S128 .f32) (x3 : Vec F S128x64 .f32) (x4 : Vec F S128x64 .f32) (x5 : Vec F S128x64 .f32) :
    arg10.view.read (Elt F) (arg10.view.writes (Elt F) arg10.view.junk
        (kernelRun0_A.sl.HS2_1 c arg1 harg1 arg2 harg2 arg3 harg3 arg6 harg6 x0 x1 x2 x5))
      = k0_pay1 (k0_pay6 x0 x1 x2 x5) := by
  rw [View.read_writes_junk_eq_canon]
  unfold kernelRun0_A.sl.HS2_1
  rw [View.canon_unit_zero zeros3]
  unfold kernelRun0_A.sl.r
  simp only [View.readAt_eq_ld, harg1.read_unread, harg2.read_unread, harg3.read_unread, harg6.read_unread,
    View.ld_unit_zero (S := S4x512x128) zeros3, View.ld_unit_zero (S := S128x128) zeros2,
    View.ld_unit_zero (S := S128) zeros1, View.ld_unit_zero (S := S128x64) zeros2]

/-- What a grid point leaves in its output block: the block function of the three projections of its blocks. -/
theorem out_eq_blockFn (c : Dev nD) (i : grid0.Coords) (arg1 : Memref sig .tc .vmem S4x512x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128x64 .f32) (harg6 : arg6.IsWhole) (arg7 : Memref sig .tc .vmem S4x512x64 .f32) (harg7 : arg7.IsWhole) (arg8 : Memref sig .tc .vmem S4x512x64 .f32) (harg8 : arg8.IsWhole) (arg9 : Memref sig .tc .vmem S4x512x64 .f32) (harg9 : arg9.IsWhole) (arg10 : Memref sig .tc .vmem S4x512x64 .f32) (harg10 : arg10.IsWhole) (x0 : Vec F S4x512x128 .f32) (x1 : Vec F S128x128 .f32) (x2 : Vec F S128 .f32) (x3 : Vec F S128x64 .f32) (x4 : Vec F S128x64 .f32) (x5 : Vec F S128x64 .f32) :
    out0_A_6 c i arg1 harg1 arg2 harg2 arg3 harg3 arg4 harg4 arg5 harg5 arg6 harg6 arg7 harg7 arg8 harg8 arg9 harg9 arg10 harg10 x0 x1 x2 x3 x4 x5
      = blockFn (k0_pay4 x0 x1 x2 x3) (k0_pay5 x0 x1 x2 x4) (k0_pay1 (k0_pay6 x0 x1 x2 x5)) := by
  unfold out0_A_6
  rw [View.read_writes_junk_eq_canon]
  funext y
  refine View.canon_apply_of_pieces _ _ ?_ y (cover0_A_6 c i arg1 harg1 arg2 harg2 arg3 harg3 arg4 harg4 arg5 harg5 arg6 harg6 arg7 harg7 arg8 harg8 arg9 harg9 arg10 harg10 x0 x1 x2 x3 x4 x5 y)
  unfold kernelRun0_A
  dsimp only
  exact visits_agree Variants.none c none i arg1 harg1 arg2 harg2 arg3 harg3 arg4 harg4 arg5 harg5 arg6 harg6 arg7 harg7 arg8 harg8 arg9 harg9 arg10 harg10 _ _ _ _ _ _
    (keys_read c arg1 harg1 arg2 harg2 arg3 harg3 arg4 harg4 arg5 harg5 arg6 harg6 arg7 harg7 arg8 harg8 arg9 harg9 arg10 harg10 x0 x1 x2 x3 x4 x5) (queries_read c arg1 harg1 arg2 harg2 arg3 harg3 arg4 harg4 arg5 harg5 arg6 harg6 arg7 harg7 arg8 harg8 arg9 harg9 arg10 harg10 x0 x1 x2 x3 x4 x5)
    (values_read c arg1 harg1 arg2 harg2 arg3 harg3 arg4 harg4 arg5 harg5 arg6 harg6 arg7 harg7 arg8 harg8 arg9 harg9 arg10 harg10 x0 x1 x2 x3 x4 x5) _

end Cert.KernelIdeal.Blk

end
-- ==== Proof.Spec.lean ====
/-
  The function both programs compute, written by coordinates on the extended reals.

  The batch extent `nb` is a parameter (the whole arrays have 128 entries, one grid point's block has 4).
  For a batch entry b, a position t and a channel c the gated input is x·σ(x·Wg + bg); its three projections
  (keys, queries, values) are sums over the 128 channels. A score couples query row i with key row j over the
  64 head channels and carries the scale 128^(-1/2) (one float literal, the same word in both programs); only
  the columns j ≤ i of a row are kept, the others are −∞. A row of scores becomes weights by subtracting the
  row's maximum and exponentiating; the result at (b, i, h) is the weighted sum of the values over the row's
  sum of weights.

  The two programs differ in two places, and each has its own form here: the kernel scales the queries
  before the product with the keys, the reference scales the finished score; the kernel divides the weighted
  sum by the weights' total, the reference divides each weight first. `Math.lean` proves the two forms equal
  on real inputs.
-/
import Idealize.ShloMosaic.PureOps.Ideal
import Idealize.ShloMosaic.Lib.ValueIdx

noncomputable section

open scoped BigOperators

namespace Cert.Spec

open Idealize.ShloMosaic Idealize.ShloMosaic.ValueIdx

/-- Arrays of extended reals of rank 3, 2, 1 by their extents. -/
abbrev A3 (a b c : ℕ) := (⟨3, ![a, b, c]⟩ : Shape).Idx → EReal
abbrev A2 (a b : ℕ) := (⟨2, ![a, b]⟩ : Shape).Idx → EReal
abbrev A1 (a : ℕ) := (⟨1, ![a]⟩ : Shape).Idx → EReal

/-- The score scale, the float nearest 128^(-1/2), as the extended real its word denotes. -/
def scale : EReal := Ideal.ofBits .f32 0x3DB504F3#32

section
variable {nb : ℕ} (X : A3 nb 512 128) (Wg : A2 128 128) (Bg : A1 128)

/-- The gate's argument at (b, t, c): row (b, t) of x against column c of Wg, plus the bias. -/
def gateLin (b : Fin nb) (t : Fin 512) (c : Fin 128) : EReal :=
  (∑ k : Fin 128, X (ix3 b t k) * Wg (ix2 k c)) + Bg (ix1 c)

/-- The gated input x·σ(gate) at (b, t, c). -/
def gated (b : Fin nb) (t : Fin 512) (c : Fin 128) : EReal :=
  X (ix3 b t c) * Ideal.logistic (gateLin X Wg Bg b t c)

/-- A projection of the gated input by a 128×64 matrix, at (b, t, h). -/
def proj (W : A2 128 64) (b : Fin nb) (t : Fin 512) (h : Fin 64) : EReal :=
  ∑ c : Fin 128, gated X Wg Bg b t c * W (ix2 c h)

variable (Wk Wq : A2 128 64)

/-- The kernel's score of query row i against key row j: the queries are scaled first. -/
def scoreK (b : Fin nb) (i j : Fin 512) : EReal :=
  ∑ h : Fin 64, (proj X Wg Bg Wq b i h * scale) * proj X Wg Bg Wk b j h

/-- The reference's score: the finished product is scaled. -/
def scoreR (b : Fin nb) (i j : Fin 512) : EReal :=
  (∑ h : Fin 64, proj X Wg Bg Wq b i h * proj X Wg Bg Wk b j h) * scale

/-- Causal masking of a score matrix: column j of row i is kept when j ≤ i, else −∞. -/
def causal (s : Fin 512 → Fin 512 → EReal) (i j : Fin 512) : EReal :=
  if j.val ≤ i.val then s i j else ⊥

/-- The weights of a row of masked scores: each entry minus the row's maximum, exponentiated. -/
def weights (r : Fin 512 → EReal) (j : Fin 512) : EReal :=
  Ideal.exp (r j - (Finset.univ : Finset (Fin 512)).fold max ⊥ r)

variable (Wv : A2 128 64)

/-- The kernel's result at (b, i, h): the weighted sum of the values, divided by the weights' total. -/
def outK (b : Fin nb) (i : Fin 512) (h : Fin 64) : EReal :=
  Ideal.div (∑ j : Fin 512, weights (causal (scoreK X Wg Bg Wk Wq b) i) j * proj X Wg Bg Wv b j h)
    (∑ j : Fin 512, weights (causal (scoreK X Wg Bg Wk Wq b) i) j)

/-- The reference's result at (b, i, h): each weight divided by the total first. -/
def outR (b : Fin nb) (i : Fin 512) (h : Fin 64) : EReal :=
  ∑ j : Fin 512, Ideal.div (weights (causal (scoreR X Wg Bg Wk Wq b) i) j)
      (∑ j' : Fin 512, weights (causal (scoreR X Wg Bg Wk Wq b) i) j') * proj X Wg Bg Wv b j h

/-- The kernel's result array. -/
def GK : A3 nb 512 64 := fun y => outK X Wg Bg Wk Wq Wv (y 0) (y 1) (y 2)

/-- The reference's result array. -/
def GR : A3 nb 512 64 := fun y => outR X Wg Bg Wk Wq Wv (y 0) (y 1) (y 2)

end

end Cert.Spec

end
-- ==== Proof.LibRowSoftmax.lean ====
/-
  General lemmas for kernels that take a softmax along the rows of a matrix and multiply matrices row by column,
  read at an index given by coordinates, on the extended reals. Independent of any program.

  * `expRows s` — every row of `s` minus its maximum, exponentiated — and `normRows e` — every row of `e` over its
    sum — are written with the vector operations a kernel body prints (a lane reduction, the result kept as a column,
    the column broadcast back along the row), with the shape facts and the accumulator facts as arguments, so that a
    printed body is such a term by `rfl`. `expRows_apply` and `normRows_apply` read them at `(p, j)`: the entry's
    distance below the fold of `max` over row `p`, exponentiated; the entry over the `Fin n` sum of row `p`.
  * `matmul_rows_cols_apply` — a product `[a, n] · [n, b]` into the zero accumulator, read at `(p, c)`, is the sum
    over `k : Fin n` of the left factor at `(p, k)` times the right factor at `(k, c)`; the two kept-axis coordinate
    facts of the dimension numbers are the caller's (they are decided on the printed record).
-/
import Idealize.ShloMosaic.PureOps
import Idealize.ShloMosaic.PureOps.Ideal.Laws
import Idealize.ShloMosaic.Lib.ValueIdx
import Idealize.ShloMosaic.Lib.Pipeline.Value

noncomputable section

open scoped BigOperators

namespace Cert.RowSoftmax

open Idealize.ShloMosaic Idealize.ShloMosaic.ValueIdx

section Layout

variable {α : Type} {a n : ℕ}

/-- A vector `[a]` kept as the column `[a, 1]` holds, at `(p, u)`, the vector's entry `p`. -/
theorem column_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, n]` holds, at `(p, c)`, the column's entry `p`. -/
theorem column_broadcast_apply (v : (⟨2, ![a, 1]⟩ : Shape).Idx → α)
    (h : (⟨2, ![a, 1]⟩ : Shape).Broadcasts ⟨2, ![a, n]⟩) (p : Fin a) (c : Fin n) :
    broadcastTo ⟨2, ![a, n]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `p` with the column coordinate `k` put back is the index `(p, k)`. -/
theorem row_lift (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

end Layout

section Terms

variable {F : FTy → Type} [FloatOps F] {a n : ℕ}

/-- Every row minus its maximum, exponentiated. -/
def expRows (s : FVec F ⟨2, ![a, n]⟩ .f32)
    (hr : (⟨2, ![a, n]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  exp (subf s (broadcastTo ⟨2, ![a, n]⟩
    (shapeCast ⟨2, ![a, 1]⟩ (multiReduction .maximumf [1] ⟨1, ![a]⟩ s 0xFF800000#32 hr hφ hacc) hc) hb))

/-- Every row over its sum. -/
def normRows (e : FVec F ⟨2, ![a, n]⟩ .f32)
    (hr : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  divf e (broadcastTo ⟨2, ![a, n]⟩
    (shapeCast ⟨2, ![a, 1]⟩ (multiReduction .add [1] ⟨1, ![a]⟩ e 0x00000000#32 hr hφ hacc) hc) hb)

end Terms

variable {a n : ℕ}

/-- Entry `(p, j)` of the exponentials: the exponential of the entry's distance below row `p`'s maximum, the
    maximum a fold of `max` from the accumulator word's value over the row. -/
theorem expRows_apply (s : FVec Ideal ⟨2, ![a, n]⟩ .f32)
    (hr : (⟨2, ![a, n]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    expRows s hr hφ hacc hc hb (ix2 p j)
      = Ideal.exp (s (ix2 p j)
          - (Finset.univ : Finset (Fin n)).fold max (Ideal.ofBits .f32 0xFF800000#32) (fun j' => s (ix2 p j'))) := by
  unfold expRows
  show Ideal.exp (s (ix2 p j) - broadcastTo ⟨2, ![a, n]⟩ _ hb (ix2 p j)) = _
  rw [column_broadcast_apply, column_apply]
  refine congrArg (fun x => Ideal.exp (s (ix2 p j) - x)) ?_
  exact (Ideal.multiReduction_maximumf_single s _ hr hφ hacc (ix1 p)).trans
    (congrArg (fun f => (Finset.univ : Finset (Fin n)).fold max (Ideal.ofBits .f32 0xFF800000#32) f)
      (funext fun k => congrArg s (row_lift hr p k)))

/-- Entry `(p, j)` of the normalised rows: the entry over the sum of row `p`. -/
theorem normRows_apply (e : FVec Ideal ⟨2, ![a, n]⟩ .f32)
    (hr : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    normRows e hr hφ hacc hc hb (ix2 p j) = Ideal.div (e (ix2 p j)) (∑ j' : Fin n, e (ix2 p j')) := by
  unfold normRows
  rw [divf_apply, column_broadcast_apply, column_apply]
  refine congrArg (Ideal.div (e (ix2 p j))) ?_
  exact (Ideal.multiReduction_add_single e _ hr hφ hacc (ix1 p)).trans
    (Finset.sum_congr rfl fun k _ => congrArg e (row_lift hr p k))

/-- A rows-by-columns product `[a, n] · [n, b]` into the zero accumulator, read at `(p, c)`: the sum over the shared
    axis of row `p` of the left factor against column `c` of the right one. The contracted coordinates follow from
    which axes are contracted; the kept ones (`hl0`, `hr1`) are the caller's. -/
theorem matmul_rows_cols_apply {b : ℕ} (d : DotDims ⟨2, ![a, n]⟩ ⟨2, ![n, b]⟩ ⟨2, ![a, b]⟩)
    (hr : d.contr.rank = 1) (hs : d.contr.size ⟨0, by omega⟩ = n)
    (hlc : d.lhsContracting = [1]) (hrc : d.rhsContracting = [0])
    (hl0 : ∀ (i : (⟨2, ![a, b]⟩ : Shape).Idx) (q : d.contr.Idx), (d.lhsIdx i q 0).val = (i 0).val)
    (hr1 : ∀ (i : (⟨2, ![a, b]⟩ : Shape).Idx) (q : d.contr.Idx), (d.rhsIdx i q 1).val = (i 1).val)
    {φ₁ φ₂ : FTy} (prec : Option ContractPrecision) (lhs : FVec Ideal ⟨2, ![a, n]⟩ φ₁) (rhs : FVec Ideal ⟨2, ![n, b]⟩ φ₂)
    (p : Fin a) (c : Fin b) :
    FloatOps.matmul d prec lhs rhs (constant ⟨2, ![a, b]⟩ .f32 0x00000000#32) (ix2 p c)
      = ∑ k : Fin n, lhs (ix2 p k) * rhs (ix2 k c) := by
  rw [Ideal.matmul_constant_zero_apply, ← Equiv.sum_comp (contrEquiv1 d n hr hs).symm]
  refine Finset.sum_congr rfl fun k _ => ?_
  have hk := contrEquiv1_symm_val d n hr hs k
  have hL : d.lhsIdx (ix2 p c) ((contrEquiv1 d n hr hs).symm k) = ix2 p k := by
    funext ax; apply Fin.ext
    match ax with
    | ⟨0, _⟩ => exact hl0 _ _
    | ⟨1, _⟩ => exact (d.lhsIdx_val_of_single hlc _ _).trans hk
  have hR : d.rhsIdx (ix2 p c) ((contrEquiv1 d n hr hs).symm k) = ix2 k c := by
    funext ax; apply Fin.ext
    match ax with
    | ⟨0, _⟩ => exact (d.rhsIdx_val_of_single hrc _ _).trans hk
    | ⟨1, _⟩ => exact hr1 _ _
  rw [hL, hR]

end Cert.RowSoftmax

end
-- ==== Proof.KernelMath.lean ====
/-
  The kernel body's arithmetic, read at an index on the extended reals.

  One grid point holds four batch entries as a [4, 512, 128] block, flattened to 2048 rows for the gate and the
  three projections (row b·512 + r is entry b, position r) and cut back into entries for the attention. Each lemma
  reads one stage at explicit coordinates and lands on the corresponding function of `Spec.lean` at batch extent 4.
-/
import proofs.«151258_j42262478193015_2_alg».proof.Proof.KernelBlock
import proofs.«151258_j42262478193015_2_alg».proof.Proof.Spec
import proofs.«151258_j42262478193015_2_alg».proof.Proof.LibRowSoftmax
import Idealize.ShloMosaic.PureOps.IdealRules
import Idealize.ShloMosaic.PureOps.Ideal.Laws

set_option maxRecDepth 16384

noncomputable section

open scoped BigOperators

namespace Cert.KernelIdeal.BlkMath

open Cert.KernelIdeal Cert.KernelIdeal.Gen Cert.KernelIdeal.Blk Idealize.ShloMosaic Idealize.ShloMosaic.ValueIdx

/-! ## The kept coordinates of the four matrix products (rows of the left factor, columns of the right one) -/

theorem dot_S2048x128_S128x128_S2048x128_1_0_0_1_n_n_l0 (i : S2048x128.Idx) (q : dot_S2048x128_S128x128_S2048x128_1_0_0_1_n_n.contr.Idx) : (dot_S2048x128_S128x128_S2048x128_1_0_0_1_n_n.lhsIdx i q 0).val = (i 0).val := by
  unfold DotDims.lhsIdx
  rw [dif_neg (show ¬(0 : Fin _) ∈ dot_S2048x128_S128x128_S2048x128_1_0_0_1_n_n.lhsBatch by decide), dif_pos (show (0 : Fin _) ∈ dot_S2048x128_S128x128_S2048x128_1_0_0_1_n_n.lhsNonContracting by decide)]
  rfl
theorem dot_S2048x128_S128x128_S2048x128_1_0_0_1_n_n_r1 (i : S2048x128.Idx) (q : dot_S2048x128_S128x128_S2048x128_1_0_0_1_n_n.contr.Idx) : (dot_S2048x128_S128x128_S2048x128_1_0_0_1_n_n.rhsIdx i q 1).val = (i 1).val := by
  unfold DotDims.rhsIdx
  rw [dif_neg (show ¬(1 : Fin _) ∈ dot_S2048x128_S128x128_S2048x128_1_0_0_1_n_n.rhsBatch by decide), dif_pos (show (1 : Fin _) ∈ dot_S2048x128_S128x128_S2048x128_1_0_0_1_n_n.rhsNonContracting by decide)]
  rfl

theorem dot_S2048x128_S128x64_S2048x64_1_0_0_1_n_n_l0 (i : S2048x64.Idx) (q : dot_S2048x128_S128x64_S2048x64_1_0_0_1_n_n.contr.Idx) : (dot_S2048x128_S128x64_S2048x64_1_0_0_1_n_n.lhsIdx i q 0).val = (i 0).val := by
  unfold DotDims.lhsIdx
  rw [dif_neg (show ¬(0 : Fin _) ∈ dot_S2048x128_S128x64_S2048x64_1_0_0_1_n_n.lhsBatch by decide), dif_pos (show (0 : Fin _) ∈ dot_S2048x128_S128x64_S2048x64_1_0_0_1_n_n.lhsNonContracting by decide)]
  rfl
theorem dot_S2048x128_S128x64_S2048x64_1_0_0_1_n_n_r1 (i : S2048x64.Idx) (q : dot_S2048x128_S128x64_S2048x64_1_0_0_1_n_n.contr.Idx) : (dot_S2048x128_S128x64_S2048x64_1_0_0_1_n_n.rhsIdx i q 1).val = (i 1).val := by
  unfold DotDims.rhsIdx
  rw [dif_neg (show ¬(1 : Fin _) ∈ dot_S2048x128_S128x64_S2048x64_1_0_0_1_n_n.rhsBatch by decide), dif_pos (show (1 : Fin _) ∈ dot_S2048x128_S128x64_S2048x64_1_0_0_1_n_n.rhsNonContracting by decide)]
  rfl

theorem dot_S512x64_S64x512_S512x512_1_0_0_1_n_n_l0 (i : S512x512.Idx) (q : dot_S512x64_S64x512_S512x512_1_0_0_1_n_n.contr.Idx) : (dot_S512x64_S64x512_S512x512_1_0_0_1_n_n.lhsIdx i q 0).val = (i 0).val := by
  unfold DotDims.lhsIdx
  rw [dif_neg (show ¬(0 : Fin _) ∈ dot_S512x64_S64x512_S512x512_1_0_0_1_n_n.lhsBatch by decide), dif_pos (show (0 : Fin _) ∈ dot_S512x64_S64x512_S512x512_1_0_0_1_n_n.lhsNonContracting by decide)]
  rfl
theorem dot_S512x64_S64x512_S512x512_1_0_0_1_n_n_r1 (i : S512x512.Idx) (q : dot_S512x64_S64x512_S512x512_1_0_0_1_n_n.contr.Idx) : (dot_S512x64_S64x512_S512x512_1_0_0_1_n_n.rhsIdx i q 1).val = (i 1).val := by
  unfold DotDims.rhsIdx
  rw [dif_neg (show ¬(1 : Fin _) ∈ dot_S512x64_S64x512_S512x512_1_0_0_1_n_n.rhsBatch by decide), dif_pos (show (1 : Fin _) ∈ dot_S512x64_S64x512_S512x512_1_0_0_1_n_n.rhsNonContracting by decide)]
  rfl

theorem dot_S512x512_S512x64_S512x64_1_0_0_1_n_n_l0 (i : S512x64.Idx) (q : dot_S512x512_S512x64_S512x64_1_0_0_1_n_n.contr.Idx) : (dot_S512x512_S512x64_S512x64_1_0_0_1_n_n.lhsIdx i q 0).val = (i 0).val := by
  unfold DotDims.lhsIdx
  rw [dif_neg (show ¬(0 : Fin _) ∈ dot_S512x512_S512x64_S512x64_1_0_0_1_n_n.lhsBatch by decide), dif_pos (show (0 : Fin _) ∈ dot_S512x512_S512x64_S512x64_1_0_0_1_n_n.lhsNonContracting by decide)]
  rfl
theorem dot_S512x512_S512x64_S512x64_1_0_0_1_n_n_r1 (i : S512x64.Idx) (q : dot_S512x512_S512x64_S512x64_1_0_0_1_n_n.contr.Idx) : (dot_S512x512_S512x64_S512x64_1_0_0_1_n_n.rhsIdx i q 1).val = (i 1).val := by
  unfold DotDims.rhsIdx
  rw [dif_neg (show ¬(1 : Fin _) ∈ dot_S512x512_S512x64_S512x64_1_0_0_1_n_n.rhsBatch by decide), dif_pos (show (1 : Fin _) ∈ dot_S512x512_S512x64_S512x64_1_0_0_1_n_n.rhsNonContracting by decide)]
  rfl

/-! ## The gate and the projections, on the 2048 flattened rows -/

/-- Row `b·512 + r` of the flattened block at channel `k` is the block's entry (b, r, k). -/
theorem flat_row (B0 : FVec Ideal S4x512x128 .f32) (b : Fin 4) (r : Fin 512) (k : Fin 128) (p : Fin 2048)
    (hp : p.val = b.val * 512 + r.val) :
    shapeCast S2048x128 B0 shapeCasts_S4x512x128_S2048x128 (ix2 p k) = B0 (ix3 b r k) :=
  shapeCast_apply B0 _ (ix2 p k) (ix3 b r k) (by
    rw [Shape.rowMajor_val_three, Shape.rowMajor_val_two]
    show (b.val * 512 + r.val) * 128 + k.val = p.val * 128 + k.val
    rw [hp])

/-- The bias, kept as a row and stretched over the 2048 rows, reads its entry `c` everywhere in column `c`. -/
theorem bias_at (B2 : FVec Ideal S128 .f32) (p : Fin 2048) (c : Fin 128) :
    broadcastTo S2048x128 (shapeCast S1x128 B2 shapeCasts_S128_S1x128) broadcasts_S1x128_S2048x128 (ix2 p c)
      = B2 (ix1 c) := by
  rw [broadcastTo_apply _ broadcasts_S1x128_S2048x128 (ix2 p c) (ix2 (0 : Fin 1) c) (fun a => by
    match a with
    | ⟨0, _⟩ => rfl
    | ⟨1, _⟩ => rfl)]
  exact shapeCast_apply B2 _ _ (ix1 c) (by
    rw [Shape.rowMajor_val_one, Shape.rowMajor_val_two]
    show c.val = 0 * 128 + c.val
    omega)

/-- The gated input at flattened row `b·512 + r`, channel `c`. -/
theorem gated_at (B0 : FVec Ideal S4x512x128 .f32) (B1 : FVec Ideal S128x128 .f32) (B2 : FVec Ideal S128 .f32)
    (b : Fin 4) (r : Fin 512) (c : Fin 128) (p : Fin 2048) (hp : p.val = b.val * 512 + r.val) :
    k0_pay3 (F := Ideal) B0 B1 B2 (ix2 p c) = Spec.gated B0 B1 B2 b r c := by
  unfold k0_pay3 Spec.gated Spec.gateLin
  change shapeCast S2048x128 B0 shapeCasts_S4x512x128_S2048x128 (ix2 p c)
      * Ideal.logistic (FloatOps.matmul dot_S2048x128_S128x128_S2048x128_1_0_0_1_n_n none
            (truncf .bf16 (shapeCast S2048x128 B0 shapeCasts_S4x512x128_S2048x128) bitsLt_bf16_f32)
            (truncf .bf16 B1 bitsLt_bf16_f32) (constant S2048x128 .f32 0x00000000#32) (ix2 p c)
          + broadcastTo S2048x128 (shapeCast S1x128 B2 shapeCasts_S128_S1x128) broadcasts_S1x128_S2048x128 (ix2 p c)) = _
  rw [flat_row B0 b r c p hp, bias_at,
    Cert.RowSoftmax.matmul_rows_cols_apply (a := 2048) (n := 128) (b := 128) dot_S2048x128_S128x128_S2048x128_1_0_0_1_n_n rfl rfl rfl rfl dot_S2048x128_S128x128_S2048x128_1_0_0_1_n_n_l0 dot_S2048x128_S128x128_S2048x128_1_0_0_1_n_n_r1]
  refine congrArg (fun s => B0 (ix3 b r c) * Ideal.logistic (s + B2 (ix1 c))) (Finset.sum_congr rfl fun k _ => ?_)
  show shapeCast S2048x128 B0 shapeCasts_S4x512x128_S2048x128 (ix2 p k) * B1 (ix2 k c) = _
  rw [flat_row B0 b r k p hp]

/-- The flat row of entry `b`, position `r`. -/
def flatRow (b : Fin 4) (r : Fin 512) : Fin 2048 := ⟨b.val * 512 + r.val, by have := b.isLt; have := r.isLt; omega⟩

/-- A [2048, 64] array cut back into four entries reads, at (b, r, h), its flat row `b·512 + r`. -/
theorem unflat (Z : FVec Ideal S2048x64 .f32) (b : Fin 4) (r : Fin 512) (h : Fin 64) :
    shapeCast S4x512x64 (shapeCast S4x512x64 Z shapeCasts_S2048x64_S4x512x64) shapeCasts_S4x512x64_S4x512x64 (ix3 b r h)
      = Z (ix2 (flatRow b r) h) := by
  rw [shapeCast_self]
  exact shapeCast_apply Z _ (ix3 b r h) (ix2 (flatRow b r) h) (by
    rw [Shape.rowMajor_val_three, Shape.rowMajor_val_two]
    show (b.val * 512 + r.val) * 64 + h.val = (b.val * 512 + r.val) * 64 + h.val
    rfl)

/-- A projection of the gated rows by a 128×64 matrix, on the flat rows. -/
theorem proj_flat (B0 : FVec Ideal S4x512x128 .f32) (B1 : FVec Ideal S128x128 .f32) (B2 : FVec Ideal S128 .f32)
    (W : FVec Ideal S128x64 .f32) (b : Fin 4) (r : Fin 512) (h : Fin 64) :
    matmul dot_S2048x128_S128x64_S2048x64_1_0_0_1_n_n none (k0_pay3 (F := Ideal) B0 B1 B2) (truncf .bf16 W bitsLt_bf16_f32)
        (constant S2048x64 .f32 0x00000000#32) (ix2 (flatRow b r) h)
      = Spec.proj B0 B1 B2 W b r h := by
  change FloatOps.matmul dot_S2048x128_S128x64_S2048x64_1_0_0_1_n_n none (k0_pay3 (F := Ideal) B0 B1 B2) (truncf .bf16 W bitsLt_bf16_f32)
        (constant S2048x64 .f32 0x00000000#32) (ix2 (flatRow b r) h) = _
  rw [Cert.RowSoftmax.matmul_rows_cols_apply (a := 2048) (n := 128) (b := 64) dot_S2048x128_S128x64_S2048x64_1_0_0_1_n_n rfl rfl rfl rfl dot_S2048x128_S128x64_S2048x64_1_0_0_1_n_n_l0 dot_S2048x128_S128x64_S2048x64_1_0_0_1_n_n_r1]
  unfold Spec.proj
  refine Finset.sum_congr rfl fun c _ => ?_
  show k0_pay3 (F := Ideal) B0 B1 B2 (ix2 (flatRow b r) c) * W (ix2 c h) = _
  rw [gated_at B0 B1 B2 b r c (flatRow b r) rfl]

/-- The keys' scratch array at (b, r, h). -/
theorem keys_at (B0 : FVec Ideal S4x512x128 .f32) (B1 : FVec Ideal S128x128 .f32) (B2 : FVec Ideal S128 .f32)
    (B3 : FVec Ideal S128x64 .f32) (b : Fin 4) (r : Fin 512) (h : Fin 64) :
    k0_pay4 (F := Ideal) B0 B1 B2 B3 (ix3 b r h) = Spec.proj B0 B1 B2 B3 b r h := by
  unfold k0_pay4
  rw [unflat, proj_flat]

/-- The values' scratch array at (b, r, h). -/
theorem values_at (B0 : FVec Ideal S4x512x128 .f32) (B1 : FVec Ideal S128x128 .f32) (B2 : FVec Ideal S128 .f32)
    (B5 : FVec Ideal S128x64 .f32) (b : Fin 4) (r : Fin 512) (h : Fin 64) :
    k0_pay1 (F := Ideal) (k0_pay6 (F := Ideal) B0 B1 B2 B5) (ix3 b r h) = Spec.proj B0 B1 B2 B5 b r h := by
  unfold k0_pay1 k0_pay6
  rw [unflat, proj_flat]

/-- The queries' scratch array at (b, r, h): the projection times the scale. -/
theorem queries_at (B0 : FVec Ideal S4x512x128 .f32) (B1 : FVec Ideal S128x128 .f32) (B2 : FVec Ideal S128 .f32)
    (B4 : FVec Ideal S128x64 .f32) (b : Fin 4) (r : Fin 512) (h : Fin 64) :
    k0_pay5 (F := Ideal) B0 B1 B2 B4 (ix3 b r h) = Spec.proj B0 B1 B2 B4 b r h * Spec.scale := by
  unfold k0_pay5
  rw [unflat]
  show matmul dot_S2048x128_S128x64_S2048x64_1_0_0_1_n_n none (k0_pay3 (F := Ideal) B0 B1 B2) (truncf .bf16 B4 bitsLt_bf16_f32)
        (constant S2048x64 .f32 0x00000000#32) (ix2 (flatRow b r) h) * Spec.scale = _
  rw [proj_flat]

end Cert.KernelIdeal.BlkMath

end
-- ==== Proof.LibMaskBits.lean ====
/-
  Words of the causal mask: a signed comparison of two small naturals, and a select on a decided bit.

  Row and column numbers below 512 sit far under 2^31, so as 32-bit words their signed readings are the numbers
  themselves, and the signed comparison "row ≥ column" of the words is the comparison of the numbers. The result is one
  bit; a select on the bit 1 is its first operand, on the bit 0 its second.
-/
import Idealize.ShloMosaic.PureOps.Ideal
import Idealize.ShloMosaic.Lib.ValueIdx

namespace Cert.MaskBits

open Idealize.ShloMosaic

/-- The signed reading of the 32-bit word of a natural below 512 is that natural. -/
theorem toInt_ofNat_small (a : ℕ) (ha : a < 512) : (BitVec.ofNat 32 a).toInt = (a : ℤ) := by
  have hn : (BitVec.ofNat 32 a).toNat = a := by
    rw [BitVec.toNat_ofNat]; exact Nat.mod_eq_of_lt (by omega)
  rw [BitVec.toInt_eq_toNat_of_lt (by rw [hn]; omega), hn]

/-- The signed "less or equal" of the words of two naturals below 512 is the naturals' own. -/
theorem sle_ofNat (a b : ℕ) (ha : a < 512) (hb : b < 512) :
    (BitVec.ofNat 32 b).sle (BitVec.ofNat 32 a) = decide (b ≤ a) := by
  rw [BitVec.sle, toInt_ofNat_small a ha, toInt_ofNat_small b hb]
  exact decide_eq_decide.mpr Int.ofNat_le

/-- The signed comparison "a ≥ b" of the words of two naturals below 512: the bit 1 when b ≤ a, else the bit 0. -/
theorem sge_ofNat (a b : ℕ) (ha : a < 512) (hb : b < 512) :
    IntOp.cmpi .sge (BitVec.ofNat 32 a) (BitVec.ofNat 32 b) = if b ≤ a then 1#1 else 0#1 := by
  show BitVec.ofBool ((BitVec.ofNat 32 b).sle (BitVec.ofNat 32 a)) = _
  rw [sle_ofNat a b ha hb]
  by_cases h : b ≤ a
  · rw [if_pos h, decide_eq_true h]; rfl
  · rw [if_neg h, decide_eq_false h]; rfl

/-- The signed comparison "a > b" of the words of two naturals below 512: the bit 1 when b < a, else the bit 0. -/
theorem sgt_ofNat (a b : ℕ) (ha : a < 512) (hb : b < 512) :
    IntOp.cmpi .sgt (BitVec.ofNat 32 a) (BitVec.ofNat 32 b) = if b < a then 1#1 else 0#1 := by
  show BitVec.ofBool ((BitVec.ofNat 32 b).slt (BitVec.ofNat 32 a)) = _
  have e : (BitVec.ofNat 32 b).slt (BitVec.ofNat 32 a) = decide (b < a) := by
    rw [BitVec.slt, toInt_ofNat_small a ha, toInt_ofNat_small b hb]
    exact decide_eq_decide.mpr Int.ofNat_lt
  rw [e]
  by_cases h : b < a
  · rw [if_pos h, decide_eq_true h]; rfl
  · rw [if_neg h, decide_eq_false h]; rfl

/-- Adding the zero word changes nothing. -/
theorem addi_zero (x : BitVec 32) : IntOp.addi x 0#32 = x := by
  show x + 0#32 = x
  exact BitVec.add_zero x

/-- A select on the bit 1 is its first operand. -/
theorem select_bit_one {α : Type} (x y : α) : Scalar.select 1#1 x y = x := ValueIdx.select_one x y

/-- A select on the bit 0 is its second operand. -/
theorem select_bit_zero {α : Type} (x y : α) : Scalar.select 0#1 x y = y := ValueIdx.select_zero x y

/-- A select on a bit decided by a proposition is the `if` on that proposition. -/
theorem select_bit {α : Type} (p : Prop) [Decidable p] (x y : α) :
    Scalar.select (if p then 1#1 else 0#1) x y = if p then x else y := by
  by_cases h : p
  · rw [if_pos h, if_pos h]; exact ValueIdx.select_one x y
  · rw [if_neg h, if_neg h]; exact ValueIdx.select_zero x y

end Cert.MaskBits
-- ==== Proof.LibRealSums.lean ====
/-
  Real entries of the extended reals, and two laws of finite sums that hold for them.

  An extended real is called real (`IsReal`) when it is the coercion of a real number: neither +∞ nor −∞.
  Sums and products of reals are real, the logistic function of a real is real, an extended real whose absolute
  value max x (−x) is below +∞ is real, and the f32 words 0x7F800000 and 0xFF800000 denote +∞ and −∞.

  On the extended reals the multiplication does not distribute over addition at the infinities, so the two laws
  are stated for real entries. `sum_scale_comm`: in a finite sum of products, a scale applied to one factor of
  every term is the scale applied to the finished sum. `softmax_div_comm`: for a row r with no entry +∞ and some
  entry above −∞, the weights e^(r j − max r) are reals that are not negative and their total is a positive
  real; so the normalisation by the total can be exchanged with the weighted sum of real values — dividing each
  weight by the total first, or the weighted sum afterwards, gives the same real.
-/
import Mathlib.Data.EReal.Inv
import Mathlib.Data.Finset.Fold
import Idealize.ShloMosaic.PureOps.Ideal
import Idealize.ShloMosaic.PureOps.Ideal.Laws
import Idealize.ShloMosaic.Lib.IdealHost

noncomputable section

open scoped BigOperators

namespace Cert.Math

open Idealize.ShloMosaic

/-! ### Real extended reals -/

/-- An extended real that is the coercion of a real number. -/
def IsReal (x : EReal) : Prop := ∃ r : ℝ, x = (r : EReal)

/-- A real is not +∞. -/
theorem IsReal.ne_top {x : EReal} : IsReal x → x ≠ ⊤ := by
  rintro ⟨r, rfl⟩; exact EReal.coe_ne_top r

/-- A real is not −∞. -/
theorem IsReal.ne_bot {x : EReal} : IsReal x → x ≠ ⊥ := by
  rintro ⟨r, rfl⟩; exact EReal.coe_ne_bot r

/-- The coercion of a real number is real. -/
theorem isReal_coe (r : ℝ) : IsReal (r : EReal) := ⟨r, rfl⟩

/-- Zero is real. -/
theorem isReal_zero : IsReal 0 := ⟨0, EReal.coe_zero.symm⟩

/-- A product of reals is real. -/
theorem IsReal.mul {x y : EReal} : IsReal x → IsReal y → IsReal (x * y) := by
  rintro ⟨a, rfl⟩ ⟨b, rfl⟩; exact ⟨a * b, (EReal.coe_mul a b).symm⟩

/-- A sum of two reals is real. -/
theorem IsReal.add {x y : EReal} : IsReal x → IsReal y → IsReal (x + y) := by
  rintro ⟨a, rfl⟩ ⟨b, rfl⟩; exact ⟨a + b, (EReal.coe_add a b).symm⟩

/-- A finite sum of reals is real. -/
theorem IsReal.sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact IsReal.add (h a (Finset.mem_insert_self a s)) (ih (fun i hi => h i (Finset.mem_insert_of_mem hi)))

/-- The logistic function of a real r is the real 1 / (1 + e^(-r)): the divisor is positive. -/
theorem IsReal.logistic {x : EReal} : IsReal x → IsReal (Ideal.logistic x) := by
  rintro ⟨r, rfl⟩; exact ⟨_, Ideal.logistic_coe r⟩

/-- An extended real whose absolute value max x (-x) is below +∞ is real. -/
theorem isReal_of_abs_lt_top {x : EReal} (h : max x (-x) < ⊤) : IsReal x := by
  induction x using EReal.rec with
  | bot => simp at h
  | coe r => exact ⟨r, rfl⟩
  | top => simp at h

/-- The f32 word with sign 0, all-ones exponent and zero fraction is +∞. -/
theorem ofBits_inf : Ideal.ofBits .f32 0x7F800000#32 = ⊤ := by
  simp [Ideal.ofBits, Ideal.ieee]

/-- The f32 word with sign 1, all-ones exponent and zero fraction is −∞. -/
theorem ofBits_neg_inf : Ideal.ofBits .f32 0xFF800000#32 = ⊥ := by
  simp [Ideal.ofBits, Ideal.ieee]

/-! ### Finite sums of reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A scale applied to one factor of every term of a sum of products of reals is the scale applied to the
    finished sum. -/
theorem sum_scale_comm {ι : Type} [Fintype ι] (q k : ι → EReal) (s : EReal)
    (hq : ∀ h, IsReal (q h)) (hk : ∀ h, IsReal (k h)) (hs : IsReal s) :
    ∑ h, (q h * s) * k h = (∑ h, q h * k h) * s := by
  obtain ⟨s', rfl⟩ := hs
  choose q' hq' using hq
  choose k' hk' using hk
  have e1 : ∀ h ∈ (Finset.univ : Finset ι), (q h * (s' : EReal)) * k h = ((q' h * s' * k' h : ℝ) : EReal) := by
    intro h _; rw [hq' h, hk' h, EReal.coe_mul, EReal.coe_mul]
  have e2 : ∀ h ∈ (Finset.univ : Finset ι), q h * k h = ((q' h * k' h : ℝ) : EReal) := by
    intro h _; rw [hq' h, hk' h, EReal.coe_mul]
  rw [Finset.sum_congr rfl e1, Finset.sum_congr rfl e2, ← coe_sum, ← coe_sum, ← EReal.coe_mul,
    Finset.sum_mul]
  exact congrArg _ (Finset.sum_congr rfl (fun h _ => by ring))

/-! ### The row normalisation -/

/-- For a row r of extended reals none of which is +∞ and one of which is not −∞, the weights
    e^(r j − max r) are real and not negative and their total is positive; so dividing each weight by the
    total before the weighted sum of real values, or the weighted sum afterwards, gives the same real. -/
theorem softmax_div_comm {n : ℕ} (r : Fin n → EReal) (v : Fin n → EReal) (hr : ∀ j, r j ≠ ⊤)
    (j0 : Fin n) (hj0 : r j0 ≠ ⊥) (hv : ∀ j, IsReal (v j)) :
    ∑ j, Ideal.div (Ideal.exp (r j - (Finset.univ : Finset (Fin n)).fold max ⊥ r))
        (∑ j', Ideal.exp (r j' - (Finset.univ : Finset (Fin n)).fold max ⊥ r)) * v j
      = Ideal.div (∑ j, Ideal.exp (r j - (Finset.univ : Finset (Fin n)).fold max ⊥ r) * v j)
        (∑ j', Ideal.exp (r j' - (Finset.univ : Finset (Fin n)).fold max ⊥ r)) := by
  -- the maximum is real: below +∞ since every entry is, above −∞ since it bounds r j0
  have hm_top : (Finset.univ : Finset (Fin n)).fold max ⊥ r < ⊤ :=
    (Finset.fold_max_lt ⊤).mpr ⟨bot_lt_top, fun j _ => lt_top_iff_ne_top.mpr (hr j)⟩
  have hm_ge : r j0 ≤ (Finset.univ : Finset (Fin n)).fold max ⊥ r :=
    (Finset.le_fold_max (r j0)).mpr (Or.inr ⟨j0, Finset.mem_univ j0, le_refl _⟩)
  have hm_bot : (Finset.univ : Finset (Fin n)).fold max ⊥ r ≠ ⊥ := by
    intro e; rw [e] at hm_ge; exact hj0 (le_bot_iff.mp hm_ge)
  generalize (Finset.univ : Finset (Fin n)).fold max ⊥ r = m at hm_top hm_ge hm_bot ⊢
  lift m to ℝ using ⟨hm_top.ne, hm_bot⟩
  -- every weight is a real that is not negative
  have hw : ∀ j, ∃ w : ℝ, 0 ≤ w ∧ Ideal.exp (r j - (m : EReal)) = (w : EReal) := by
    intro j
    induction hx : r j using EReal.rec with
    | bot => exact ⟨0, le_refl _, by rw [EReal.bot_sub, Ideal.exp_bot, EReal.coe_zero]⟩
    | coe a => exact ⟨Real.exp (a - m), (Real.exp_pos _).le, by rw [← EReal.coe_sub, Ideal.exp_coe]⟩
    | top => exact absurd hx (hr j)
  choose w hw0 hw using hw
  choose v' hv' using hv
  -- the weight at j0 is positive, so the total is
  have hwj0 : 0 < w j0 := by
    have h := hw j0
    induction hx : r j0 using EReal.rec with
    | bot => exact absurd hx hj0
    | coe a =>
      rw [hx, ← EReal.coe_sub, Ideal.exp_coe] at h
      rw [← EReal.coe_eq_coe_iff.mp h]; exact Real.exp_pos _
    | top => exact absurd hx (hr j0)
  have hL : 0 < ∑ j, w j :=
    Finset.sum_pos' (fun j _ => hw0 j) ⟨j0, Finset.mem_univ j0, hwj0⟩
  have eL : ∑ j', Ideal.exp (r j' - (m : EReal)) = ((∑ j, w j : ℝ) : EReal) := by
    rw [coe_sum]; exact Finset.sum_congr rfl (fun j _ => hw j)
  rw [eL]
  have e1 : ∀ j ∈ (Finset.univ : Finset (Fin n)),
      Ideal.div (Ideal.exp (r j - (m : EReal))) ((∑ j, w j : ℝ) : EReal) * v j
        = ((w j * (1 / ∑ j, w j) * v' j : ℝ) : EReal) := by
    intro j _
    rw [Ideal.div_coe hL.ne', hw j, hv' j, EReal.coe_mul, EReal.coe_mul]
  have e2 : ∀ j ∈ (Finset.univ : Finset (Fin n)),
      Ideal.exp (r j - (m : EReal)) * v j = ((w j * v' j : ℝ) : EReal) := by
    intro j _
    rw [hw j, hv' j, EReal.coe_mul]
  rw [Finset.sum_congr rfl e1, Finset.sum_congr rfl e2, Ideal.div_coe hL.ne', ← coe_sum, ← coe_sum,
    ← EReal.coe_mul, Finset.sum_mul]
  exact congrArg _ (Finset.sum_congr rfl (fun j _ => by ring))

end Cert.Math

end
-- ==== Proof.Math.lean ====
/-
  The two forms of the specification agree on real inputs.

  The score scale is a real number; the gated input, its projections and the scores of real data are real; so
  scaling the queries before the product with the keys, or the finished score, gives the same score, the
  masked rows and their weights are the same, and dividing the weighted sum of the values by the weights'
  total, or each weight first, gives the same result. The laws on real entries are those of `LibRealSums`.
-/
import proofs.«151258_j42262478193015_2_alg».proof.Proof.LibRealSums
import proofs.«151258_j42262478193015_2_alg».proof.Proof.Spec

noncomputable section

open scoped BigOperators

namespace Cert.Math

open Idealize.ShloMosaic

/-! ### The scale and the row law in the specification's words -/

/-- The score scale is a normal number (its exponent field is neither all zeros nor all ones), so it is
    real. -/
theorem isReal_scale : IsReal Cert.Spec.scale := by
  unfold Cert.Spec.scale Ideal.ofBits Ideal.ieee
  simp only []
  rw [if_neg (by decide), if_neg (by decide)]
  exact ⟨_, rfl⟩

/-- The same law for a row of 512 masked scores, in the specification's own words. -/
theorem weights_div_comm (r : Fin 512 → EReal) (v : Fin 512 → EReal) (hr : ∀ j, r j ≠ ⊤)
    (j0 : Fin 512) (hj0 : r j0 ≠ ⊥) (hv : ∀ j, IsReal (v j)) :
    ∑ j, Ideal.div (Cert.Spec.weights r j) (∑ j', Cert.Spec.weights r j') * v j
      = Ideal.div (∑ j, Cert.Spec.weights r j * v j) (∑ j', Cert.Spec.weights r j') :=
  softmax_div_comm r v hr j0 hj0 hv

/-! ### The two forms of the specification agree on real inputs -/

section

variable {nb : ℕ} (X : Cert.Spec.A3 nb 512 128) (Wg : Cert.Spec.A2 128 128) (Bg : Cert.Spec.A1 128)
variable (hX : ∀ i, IsReal (X i)) (hWg : ∀ i, IsReal (Wg i)) (hBg : ∀ i, IsReal (Bg i))

include hX hWg hBg

/-- The gated input of real data is real. -/
theorem isReal_gated (b : Fin nb) (t : Fin 512) (c : Fin 128) :
    IsReal (Cert.Spec.gated X Wg Bg b t c) := by
  unfold Cert.Spec.gated Cert.Spec.gateLin
  exact IsReal.mul (hX _)
    (IsReal.logistic (IsReal.add (IsReal.sum _ _ (fun k _ => IsReal.mul (hX _) (hWg _))) (hBg _)))

/-- A projection of the gated input by a real matrix is real. -/
theorem isReal_proj (W : Cert.Spec.A2 128 64) (hW : ∀ i, IsReal (W i)) (b : Fin nb) (t : Fin 512)
    (h : Fin 64) : IsReal (Cert.Spec.proj X Wg Bg W b t h) := by
  unfold Cert.Spec.proj
  exact IsReal.sum _ _ (fun c _ => IsReal.mul (isReal_gated X Wg Bg hX hWg hBg b t c) (hW _))

variable (Wk Wq : Cert.Spec.A2 128 64) (hWk : ∀ i, IsReal (Wk i)) (hWq : ∀ i, IsReal (Wq i))

include hWk hWq

/-- Scaling the queries before the product with the keys, or the finished score, is the same on reals. -/
theorem scoreK_eq_scoreR (b : Fin nb) (i j : Fin 512) :
    Cert.Spec.scoreK X Wg Bg Wk Wq b i j = Cert.Spec.scoreR X Wg Bg Wk Wq b i j := by
  unfold Cert.Spec.scoreK Cert.Spec.scoreR
  exact sum_scale_comm _ _ _ (fun h => isReal_proj X Wg Bg hX hWg hBg Wq hWq b i h)
    (fun h => isReal_proj X Wg Bg hX hWg hBg Wk hWk b j h) isReal_scale

/-- A score of real data is real. -/
theorem isReal_scoreR (b : Fin nb) (i j : Fin 512) :
    IsReal (Cert.Spec.scoreR X Wg Bg Wk Wq b i j) := by
  unfold Cert.Spec.scoreR
  exact IsReal.mul
    (IsReal.sum _ _ (fun h _ => IsReal.mul (isReal_proj X Wg Bg hX hWg hBg Wq hWq b i h)
      (isReal_proj X Wg Bg hX hWg hBg Wk hWk b j h))) isReal_scale

omit hX hWg hBg hWk hWq in
/-- A masked row of real scores has no entry +∞: an entry is a real score or −∞. -/
theorem causal_ne_top (s : Fin 512 → Fin 512 → EReal) (hs : ∀ i j, IsReal (s i j)) (i j : Fin 512) :
    Cert.Spec.causal s i j ≠ ⊤ := by
  unfold Cert.Spec.causal
  split_ifs
  · exact (hs i j).ne_top
  · exact bot_ne_top

omit hX hWg hBg hWk hWq in
/-- The diagonal entry of a masked row of real scores is kept, so it is not −∞. -/
theorem causal_diag_ne_bot (s : Fin 512 → Fin 512 → EReal) (hs : ∀ i j, IsReal (s i j)) (i : Fin 512) :
    Cert.Spec.causal s i i ≠ ⊥ := by
  unfold Cert.Spec.causal
  rw [if_pos (le_refl _)]
  exact (hs i i).ne_bot

variable (Wv : Cert.Spec.A2 128 64) (hWv : ∀ i, IsReal (Wv i))

include hWv

/-- The two results agree at every coordinate: the scores are the same reals, so the masked rows and their
    weights are the same, and the two orders of dividing by the weights' total agree on such a row. -/
theorem outR_eq_outK (b : Fin nb) (i : Fin 512) (h : Fin 64) :
    Cert.Spec.outR X Wg Bg Wk Wq Wv b i h = Cert.Spec.outK X Wg Bg Wk Wq Wv b i h := by
  have e : Cert.Spec.scoreK X Wg Bg Wk Wq b = Cert.Spec.scoreR X Wg Bg Wk Wq b := by
    funext i j; exact scoreK_eq_scoreR X Wg Bg hX hWg hBg Wk Wq hWk hWq b i j
  have hs : ∀ i j, IsReal (Cert.Spec.scoreR X Wg Bg Wk Wq b i j) :=
    fun i j => isReal_scoreR X Wg Bg hX hWg hBg Wk Wq hWk hWq b i j
  unfold Cert.Spec.outR Cert.Spec.outK
  rw [e]
  exact weights_div_comm _ _ (fun j => causal_ne_top _ hs i j) i (causal_diag_ne_bot _ hs i)
    (fun j => isReal_proj X Wg Bg hX hWg hBg Wv hWv b j h)

end

/-- On real inputs the reference's form of the result array is the kernel's, at every batch extent. -/
theorem GR_eq_GK {nb : ℕ} (X : Cert.Spec.A3 nb 512 128) (Wg : Cert.Spec.A2 128 128) (Bg : Cert.Spec.A1 128)
    (Wk Wq Wv : Cert.Spec.A2 128 64)
    (hX : ∀ i, IsReal (X i)) (hWg : ∀ i, IsReal (Wg i)) (hBg : ∀ i, IsReal (Bg i))
    (hWk : ∀ i, IsReal (Wk i)) (hWq : ∀ i, IsReal (Wq i)) (hWv : ∀ i, IsReal (Wv i)) :
    Cert.Spec.GR X Wg Bg Wk Wq Wv = Cert.Spec.GK X Wg Bg Wk Wq Wv := by
  funext y
  exact outR_eq_outK X Wg Bg hX hWg hBg Wk Wq hWk hWq Wv hWv (y 0) (y 1) (y 2)

end Cert.Math

end
-- ==== Proof.KernelAttn.lean ====
/-
  The kernel's per-entry attention, read at an index.

  One trip of the kernel's inner loop takes three 512×64 slabs — the scaled queries, the keys and the values of one
  batch entry — and produces that entry's 512×64 block of the result. Its body is a chain of vector operations; read at
  row i and head channel h they say: the score of row i against row j is the sum over the head channels of the products;
  column j of row i is kept when j ≤ i and is −∞ otherwise; the weights of a row are its masked scores minus the row's
  maximum, exponentiated; the result is the weighted sum of the values over the weights' total.
-/
import proofs.«151258_j42262478193015_2_alg».proof.Proof.Gen.KernelIdeal.Skeleton
import proofs.«151258_j42262478193015_2_alg».proof.Proof.Spec
import proofs.«151258_j42262478193015_2_alg».proof.Proof.LibRowSoftmax
import proofs.«151258_j42262478193015_2_alg».proof.Proof.LibMaskBits
import proofs.«151258_j42262478193015_2_alg».proof.Proof.Math
import Idealize.ShloMosaic.PureOps.IdealRules
import Idealize.ShloMosaic.PureOps.Ideal.Laws
import Idealize.ShloMosaic.Lib.Pipeline.Value
import Idealize.ShloMosaic.Lib.ValueIdx

set_option maxRecDepth 16384

noncomputable section

open scoped BigOperators

namespace Cert.KernelIdeal.Attn

open Cert.KernelIdeal Cert.KernelIdeal.Gen Idealize.ShloMosaic Idealize.ShloMosaic.ValueIdx

/-- The score of the loaded slabs: row i of the first against row j of the second, over the head channels. -/
def slabScore (q k : FVec Ideal S1x512x64 .f32) (i j : Fin 512) : EReal :=
  ∑ h : Fin 64, q (ix3 (0 : Fin 1) i h) * k (ix3 (0 : Fin 1) j h)

/-! ## Layout: dropping and adding the unit axis, and the transpose -/

section Layout
variable {α : Type}

/-- A 1×512×64 slab viewed as a 512×64 matrix holds, at (i, h), the slab's entry (0, i, h). -/
theorem rows_apply (x : S1x512x64.Idx → α) (i : Fin 512) (h : Fin 64) :
    shapeCast S512x64 x shapeCasts_S1x512x64_S512x64 (ix2 i h) = x (ix3 (0 : Fin 1) i h) :=
  shapeCast_apply x shapeCasts_S1x512x64_S512x64 _ _ (by
    rw [Shape.rowMajor_val_three, Shape.rowMajor_val_two]
    show (0 * 512 + i.val) * 64 + h.val = i.val * 64 + h.val
    omega)

/-- A 512×64 matrix stored as a 1×512×64 slab holds, at (0, i, h), the matrix's entry (i, h). -/
theorem slab_apply (y : S512x64.Idx → α) (i : Fin 512) (h : Fin 64) :
    shapeCast S1x512x64 y shapeCasts_S512x64_S1x512x64 (ix3 (0 : Fin 1) i h) = y (ix2 i h) :=
  shapeCast_apply y shapeCasts_S512x64_S1x512x64 _ _ (by
    rw [Shape.rowMajor_val_three, Shape.rowMajor_val_two]
    show i.val * 64 + h.val = (0 * 512 + i.val) * 64 + h.val
    omega)

/-- The transpose of a 512×64 matrix holds, at (h, j), the matrix's entry (j, h). -/
theorem transpose_rows_apply (y : S512x64.Idx → α) (h : Fin 64) (j : Fin 512) :
    transpose S64x512 [1, 0] y transposes_S512x64_p1_0_S64x512 (ix2 h j) = y (ix2 j h) :=
  transpose_apply [1, 0] y transposes_S512x64_p1_0_S64x512 (ix2 h j) (ix2 j h)
    (fun b => match b with | ⟨0, _⟩ => rfl | ⟨1, _⟩ => rfl)

end Layout

/-! ## The kept coordinates of the two products -/

theorem qk_l0 (i : S512x512.Idx) (c : dot_S512x64_S64x512_S512x512_1_0_0_1_n_n.contr.Idx) :
    (dot_S512x64_S64x512_S512x512_1_0_0_1_n_n.lhsIdx i c 0).val = (i 0).val := by
  unfold DotDims.lhsIdx
  rw [dif_neg (show ¬(0 : Fin S512x64.rank) ∈ dot_S512x64_S64x512_S512x512_1_0_0_1_n_n.lhsBatch by decide),
    dif_pos (show (0 : Fin S512x64.rank) ∈ dot_S512x64_S64x512_S512x512_1_0_0_1_n_n.lhsNonContracting by decide)]
  rfl

theorem qk_r1 (i : S512x512.Idx) (c : dot_S512x64_S64x512_S512x512_1_0_0_1_n_n.contr.Idx) :
    (dot_S512x64_S64x512_S512x512_1_0_0_1_n_n.rhsIdx i c 1).val = (i 1).val := by
  unfold DotDims.rhsIdx
  rw [dif_neg (show ¬(1 : Fin S64x512.rank) ∈ dot_S512x64_S64x512_S512x512_1_0_0_1_n_n.rhsBatch by decide),
    dif_pos (show (1 : Fin S64x512.rank) ∈ dot_S512x64_S64x512_S512x512_1_0_0_1_n_n.rhsNonContracting by decide)]
  rfl

theorem wv_l0 (i : S512x64.Idx) (c : dot_S512x512_S512x64_S512x64_1_0_0_1_n_n.contr.Idx) :
    (dot_S512x512_S512x64_S512x64_1_0_0_1_n_n.lhsIdx i c 0).val = (i 0).val := by
  unfold DotDims.lhsIdx
  rw [dif_neg (show ¬(0 : Fin S512x512.rank) ∈ dot_S512x512_S512x64_S512x64_1_0_0_1_n_n.lhsBatch by decide),
    dif_pos (show (0 : Fin S512x512.rank) ∈ dot_S512x512_S512x64_S512x64_1_0_0_1_n_n.lhsNonContracting by decide)]
  rfl

theorem wv_r1 (i : S512x64.Idx) (c : dot_S512x512_S512x64_S512x64_1_0_0_1_n_n.contr.Idx) :
    (dot_S512x512_S512x64_S512x64_1_0_0_1_n_n.rhsIdx i c 1).val = (i 1).val := by
  unfold DotDims.rhsIdx
  rw [dif_neg (show ¬(1 : Fin S512x64.rank) ∈ dot_S512x512_S512x64_S512x64_1_0_0_1_n_n.rhsBatch by decide),
    dif_pos (show (1 : Fin S512x64.rank) ∈ dot_S512x512_S512x64_S512x64_1_0_0_1_n_n.rhsNonContracting by decide)]
  rfl

/-! ## The stages of the loop body -/

/-- The lower-triangle bits: the row number compared with the column number. -/
def tril : IVec S512x512 1 :=
  cmpi .sge (iota .tc S512x512 32 [0] iota_S512x512_d0_w32) (iota .tc S512x512 32 [1] iota_S512x512_d1_w32)

/-- A slab as a 512×64 matrix. -/
def rows (x : FVec Ideal S1x512x64 .f32) : FVec Ideal S512x64 .f32 :=
  shapeCast S512x64 x shapeCasts_S1x512x64_S512x64

variable (q k v : FVec Ideal S1x512x64 .f32)

/-- The scores: the first slab's rows against the second slab's rows. -/
def scores : FVec Ideal S512x512 .f32 :=
  matmul dot_S512x64_S64x512_S512x512_1_0_0_1_n_n none (truncf .bf16 (rows q) bitsLt_bf16_f32)
    (transpose S64x512 [1, 0] (truncf .bf16 (rows k) bitsLt_bf16_f32) transposes_S512x64_p1_0_S64x512)
    (constant S512x512 .f32 0x00000000#32)

/-- The masked scores. -/
def masked : FVec Ideal S512x512 .f32 :=
  select tril (scores q k) (broadcast S512x512 (Named.named κ "neg_big" 0xF149F2CA#32 : Ideal .f32))

/-- The weights: every row of the masked scores minus its maximum, exponentiated. -/
def wts : FVec Ideal S512x512 .f32 :=
  Cert.RowSoftmax.expRows (masked q k) reduces_S512x512_S512 (.inl rfl) rfl shapeCasts_S512_S512x1
    broadcasts_S512x1_S512x512

/-- The weighted sums of the values. -/
def numer : FVec Ideal S512x64 .f32 :=
  matmul dot_S512x512_S512x64_S512x64_1_0_0_1_n_n none (truncf .bf16 (wts q k) bitsLt_bf16_f32)
    (truncf .bf16 (rows v) bitsLt_bf16_f32) (constant S512x64 .f32 0x00000000#32)

/-- The totals of the weights, one per row, repeated along the head channels. -/
def total : FVec Ideal S512x64 .f32 :=
  broadcastTo S512x64
    (shapeCast S512x1 (multiReduction .add [1] S512 (wts q k) 0x00000000#32 reduces_S512x512_S512 (.inl rfl) rfl)
      shapeCasts_S512_S512x1) broadcasts_S512x1_S512x64

/-- The loop body is the quotient of the weighted sums by the totals, stored as a slab. -/
theorem pay2_eq :
    k0_pay2 (F := Ideal) q k v
      = shapeCast S1x512x64 (divf (numer q k v) (total q k)) shapeCasts_S512x64_S1x512x64 := rfl

/-- The lower-triangle bit at (i, j): 1 when j ≤ i, else 0. -/
theorem tril_apply (i j : Fin 512) : tril (ix2 i j) = if j.val ≤ i.val then 1#1 else 0#1 := by
  show IntOp.cmpi .sge (iota .tc S512x512 32 [0] iota_S512x512_d0_w32 (ix2 i j))
    (iota .tc S512x512 32 [1] iota_S512x512_d1_w32 (ix2 i j)) = _
  rw [iota_single_apply, iota_single_apply]
  exact MaskBits.sge_ofNat i.val j.val i.isLt j.isLt

/-- The score at (i, j). -/
theorem scores_apply (i j : Fin 512) : scores q k (ix2 i j) = slabScore q k i j := by
  unfold scores slabScore
  refine (Cert.RowSoftmax.matmul_rows_cols_apply (a := 512) (n := 64) (b := 512)
    dot_S512x64_S64x512_S512x512_1_0_0_1_n_n rfl rfl rfl rfl qk_l0 qk_r1 none _ _ i j).trans ?_
  refine Finset.sum_congr rfl fun h _ => ?_
  rw [transpose_rows_apply]
  show rows q (ix2 i h) * rows k (ix2 j h) = _
  unfold rows
  rw [rows_apply, rows_apply]

/-- The fill of the masked-out columns is the bottom of the extended reals. -/
theorem neg_big : Named.named (F := Ideal) κ "neg_big" (φ := .f32) 0xF149F2CA#32 = (⊥ : EReal) :=
  IdealRules.named_const.ideal_named_scalar _ _ _ _ rfl

/-- The masked score at (i, j): kept when j ≤ i, else −∞. -/
theorem masked_apply (i j : Fin 512) : masked q k (ix2 i j) = Cert.Spec.causal (slabScore q k) i j := by
  show Scalar.select (tril (ix2 i j)) (scores q k (ix2 i j))
    (Named.named (F := Ideal) κ "neg_big" (φ := .f32) 0xF149F2CA#32) = _
  rw [tril_apply, scores_apply, neg_big, MaskBits.select_bit]
  rfl

/-- The weight at (i, j). -/
theorem wts_apply (i j : Fin 512) :
    wts q k (ix2 i j) = Cert.Spec.weights (Cert.Spec.causal (slabScore q k) i) j := by
  unfold wts
  refine (Cert.RowSoftmax.expRows_apply (a := 512) (n := 512) (masked q k) reduces_S512x512_S512 _ _
    shapeCasts_S512_S512x1 broadcasts_S512x1_S512x512 i j).trans ?_
  rw [Cert.Math.ofBits_neg_inf, masked_apply]
  have e : (fun j' : Fin 512 => masked q k (ix2 i j')) = Cert.Spec.causal (slabScore q k) i :=
    funext fun j' => masked_apply q k i j'
  rw [e]
  rfl

/-- The total of row i's weights, at any head channel. -/
theorem total_apply (i : Fin 512) (h : Fin 64) :
    total q k (ix2 i h) = ∑ j : Fin 512, Cert.Spec.weights (Cert.Spec.causal (slabScore q k) i) j := by
  unfold total
  rw [Cert.RowSoftmax.column_broadcast_apply (a := 512) (n := 64), Cert.RowSoftmax.column_apply (a := 512)]
  exact (Ideal.multiReduction_add_single (wts q k) _ reduces_S512x512_S512 (.inl rfl) rfl (ix1 i)).trans
    (Finset.sum_congr rfl fun c _ =>
      (congrArg (wts q k) (Cert.RowSoftmax.row_lift reduces_S512x512_S512 i c)).trans (wts_apply q k i _))

/-- The weighted sum of the values at (i, h). -/
theorem numer_apply (i : Fin 512) (h : Fin 64) :
    numer q k v (ix2 i h)
      = ∑ j : Fin 512, Cert.Spec.weights (Cert.Spec.causal (slabScore q k) i) j * v (ix3 (0 : Fin 1) j h) := by
  unfold numer
  refine (Cert.RowSoftmax.matmul_rows_cols_apply (a := 512) (n := 512) (b := 64)
    dot_S512x512_S512x64_S512x64_1_0_0_1_n_n rfl rfl rfl rfl wv_l0 wv_r1 none _ _ i h).trans ?_
  refine Finset.sum_congr rfl fun j _ => ?_
  show wts q k (ix2 i j) * rows v (ix2 j h) = _
  rw [wts_apply]
  unfold rows
  rw [rows_apply]

/-- The loop body at (0, i, h): the weighted sum of the values over the weights' total. -/
theorem attn_at (q k v : FVec Ideal S1x512x64 .f32) (i : Fin 512) (h : Fin 64) :
    k0_pay2 (F := Ideal) q k v (ix3 (0 : Fin 1) i h)
      = Ideal.div (∑ j : Fin 512, Cert.Spec.weights (Cert.Spec.causal (slabScore q k) i) j * v (ix3 (0 : Fin 1) j h))
          (∑ j : Fin 512, Cert.Spec.weights (Cert.Spec.causal (slabScore q k) i) j) := by
  rw [pay2_eq, slab_apply, divf_apply, numer_apply, total_apply]

end Cert.KernelIdeal.Attn

end
-- ==== Proof.KernelBlockAt.lean ====
/-
  One grid point's output block, index by index, on the extended reals: the closed-form attention of the point's
  own four batch entries. The three scratch arrays are the key, scaled-query and value projections of the gated
  block; the visit of entry b reads their slabs b, and its result is the softmax-weighted sum of the value rows.
-/
import proofs.«151258_j42262478193015_2_alg».proof.Proof.KernelMath
import proofs.«151258_j42262478193015_2_alg».proof.Proof.KernelAttn

set_option maxRecDepth 16384

noncomputable section

open scoped BigOperators

namespace Cert.KernelIdeal.BlkMath

open Cert.KernelIdeal Cert.KernelIdeal.Gen Cert.KernelIdeal.Blk Idealize.ShloMosaic Idealize.ShloMosaic.ValueIdx

/-- One grid point's output block at (b, r, h) is the closed-form result of its own four-entry batch. -/
theorem block_at (B0 : FVec Ideal S4x512x128 .f32) (B1 : FVec Ideal S128x128 .f32) (B2 : FVec Ideal S128 .f32)
    (B3 B4 B5 : FVec Ideal S128x64 .f32) (b : Fin 4) (r : Fin 512) (h : Fin 64) :
    blockFn (F := Ideal) (k0_pay4 (F := Ideal) B0 B1 B2 B3) (k0_pay5 (F := Ideal) B0 B1 B2 B4)
        (k0_pay1 (F := Ideal) (k0_pay6 (F := Ideal) B0 B1 B2 B5)) (ix3 b r h)
      = Spec.outK B0 B1 B2 B3 B4 B5 b r h := by
  unfold blockFn
  show k0_pay2 (F := Ideal) (slab (k0_pay5 (F := Ideal) B0 B1 B2 B4) b) (slab (k0_pay4 (F := Ideal) B0 B1 B2 B3) b)
      (slab (k0_pay1 (F := Ideal) (k0_pay6 (F := Ideal) B0 B1 B2 B5)) b) (ix3 (0 : Fin 1) r h) = _
  rw [Cert.KernelIdeal.Attn.attn_at]
  have hS : Cert.KernelIdeal.Attn.slabScore (slab (k0_pay5 (F := Ideal) B0 B1 B2 B4) b) (slab (k0_pay4 (F := Ideal) B0 B1 B2 B3) b)
      = Spec.scoreK B0 B1 B2 B3 B4 b := by
    funext i j
    unfold Cert.KernelIdeal.Attn.slabScore Spec.scoreK
    refine Finset.sum_congr rfl fun h' _ => ?_
    show k0_pay5 (F := Ideal) B0 B1 B2 B4 (ix3 b i h') * k0_pay4 (F := Ideal) B0 B1 B2 B3 (ix3 b j h') = _
    rw [queries_at, keys_at]
  rw [hS]
  unfold Spec.outK
  refine congrArg (fun s => Ideal.div s _) (Finset.sum_congr rfl fun j _ => ?_)
  show _ * k0_pay1 (F := Ideal) (k0_pay6 (F := Ideal) B0 B1 B2 B5) (ix3 b j h) = _
  rw [values_at]

end Cert.KernelIdeal.BlkMath

end
-- ==== Proof.KernelCover.lean ====
/-
  The geometry of the kernel's blocks. The grid has 32 points. At point t the input x is read through a block
  of 4 batch entries, all 512 positions and all 128 channels, at block index (t, 0, 0); the five weight arrays
  are whole-array blocks at index 0; the output is written through a block of 4 batch entries, all 512
  positions and all 64 head channels, at block index (t, 0, 0). So point t reads rows 4·t … 4·t+3 of x, every
  weight whole, and writes rows 4·t … 4·t+3 of the output, and the 32 output blocks cover the output array.
-/
import proofs.«151258_j42262478193015_2_alg».proof.Proof.Gen.KernelIdeal.Value
import Idealize.ShloMosaic.Lib.Pipeline.Value
import Idealize.ShloMosaic.Lib.ValueIdx

set_option maxRecDepth 16384

noncomputable section

namespace Cert.KernelIdeal.Cover

open Cert.KernelIdeal Cert.KernelIdeal.Gen Idealize.ShloMosaic Idealize.ShloMosaic.TcCoe Idealize.SL.Sem
open Idealize.ShloMosaic.ValueIdx

variable {F : FTy → Type} [FloatOps F] [Named F]
variable (m : (ℓ : Loc nD τ sig) → Buf (Elt F) ℓ)

/-! ## The block indices over the grid -/

/-- The printed index maps, decided over the 32 grid points: the x block and the output block move together
    along the batch axis and sit at 0 on the other axes; the output's batch block index is at most 31; every
    weight block sits at index 0. -/
theorem idx_facts : ∀ t : Fin cfg0.N, win0_0.index t (0 : Fin 3) = win0_6.index t (0 : Fin 3)
    ∧ win0_0.index t (1 : Fin 3) = 0 ∧ win0_0.index t (2 : Fin 3) = 0
    ∧ win0_6.index t (1 : Fin 3) = 0 ∧ win0_6.index t (2 : Fin 3) = 0
    ∧ win0_6.index t (0 : Fin 3) ≤ 31
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Every batch block index 0 … 31 is some point's. -/
theorem idx_onto : ∀ q : Fin 32, ∃ t : Fin cfg0.N, win0_6.index t = ![q.val, 0, 0] :=
  (by decide +kernel : ∀ q : Fin 32, ∃ t : Fin grid0.N, win0_6.index t = ![q.val, 0, 0])

/-- The batch entry that row b of point t's blocks is: 4 · (block index) + b. -/
def row (t : Fin cfg0.N) (b : Fin 4) : Fin 128 :=
  ⟨win0_6.index t (0 : Fin 3) * 4 + b.val, by
    have h := (idx_facts t).2.2.2.2.2.1
    have hb := b.isLt
    omega⟩

theorem row_val (t : Fin cfg0.N) (b : Fin 4) : (row t b).val = win0_6.index t (0 : Fin 3) * 4 + b.val := rfl

/-! ## The output window -/

/-- Where the output block's index (b, r, h) at point t lies in the output array. A block's coordinate is the
    block index times the block's size plus the coordinate inside the block. -/
theorem out_index (t : Fin cfg0.N) (b : Fin 4) (r : Fin 512) (h : Fin 64) :
    ((cfg0.win 6).blk t).view.emb (ix3 b r h) = ix3 (row t b) r h := by
  obtain ⟨e0, e1, e2, e3, e4, e5, -⟩ := idx_facts t
  funext a; apply Fin.ext
  match a with
  | ⟨0, _⟩ => show win0_6.index t (0 : Fin 3) * 4 + 1 * b.val = win0_6.index t (0 : Fin 3) * 4 + b.val; omega
  | ⟨1, _⟩ => show win0_6.index t (1 : Fin 3) * 512 + 1 * r.val = r.val; omega
  | ⟨2, _⟩ => show win0_6.index t (2 : Fin 3) * 64 + 1 * h.val = h.val; omega

/-- An index of the output array is in point t's block iff each coordinate is in the block's range on its axis. -/
theorem mem_blk6 (t : Fin cfg0.N) (i : S128x512x64.Idx) :
    i ∈ ((cfg0.win 6).blk t).view.set ↔ ∀ a : Fin 3, win0_6.index t a * S4x512x64.size a ≤ (i a).val ∧ (i a).val < win0_6.index t a * S4x512x64.size a + S4x512x64.size a := by
  show i ∈ ((View.whole main_v0).slice (win0_6.rect t)).set ↔ _
  rw [View.set_slice_whole, Rect.mem_set_unit]
  exact Iff.rfl

/-- Every index of the output array is in the block of a point that writes back: the point whose batch block
    index is the index's batch entry divided by 4. -/
theorem cover6 (i : S128x512x64.Idx) :
    ∃ t : Fin cfg0.N, (cfg0.win 6).flush t = true ∧ i ∈ ((cfg0.win 6).blk t).view.set := by
  have hi0 : (i 0).val < 128 := (i 0).isLt
  have hi1 : (i 1).val < 512 := (i 1).isLt
  have hi2 : (i 2).val < 64 := (i 2).isLt
  obtain ⟨t, ht⟩ := idx_onto ⟨(i 0).val / 4, by omega⟩
  have q0 : win0_6.index t (0 : Fin 3) = (i 0).val / 4 := congrFun ht 0
  have q1 : win0_6.index t (1 : Fin 3) = 0 := congrFun ht 1
  have q2 : win0_6.index t (2 : Fin 3) = 0 := congrFun ht 2
  refine ⟨t, flush0_6 t, ?_⟩
  rw [mem_blk6]
  intro a
  match a with
  | ⟨0, _⟩ => show win0_6.index t (0 : Fin 3) * 4 ≤ (i 0).val ∧ (i 0).val < win0_6.index t (0 : Fin 3) * 4 + 4; omega
  | ⟨1, _⟩ => show win0_6.index t (1 : Fin 3) * 512 ≤ (i 1).val ∧ (i 1).val < win0_6.index t (1 : Fin 3) * 512 + 512; omega
  | ⟨2, _⟩ => show win0_6.index t (2 : Fin 3) * 64 ≤ (i 2).val ∧ (i 2).val < win0_6.index t (2 : Fin 3) * 64 + 64; omega

/-! ## The input windows -/

/-- The x block at point t is rows 4·idx … 4·idx+3 of x: read at (b, r, k) it is x at (4·idx + b, r, k). -/
theorem x_block (c : Dev nD) (t : Fin cfg0.N) (b : Fin 4) (r : Fin 512) (k : Fin 128) :
    iblk m c 0 t (ix3 b r k) = V m c main_arg0 (ix3 (row t b) r k) := by
  obtain ⟨e0, e1, e2, e3, e4, e5, -⟩ := idx_facts t
  show V m c main_arg0 (((cfg0.win 0).blk t).view.emb (ix3 b r k)) = _
  refine congrArg (V m c main_arg0) ?_
  funext a; apply Fin.ext
  match a with
  | ⟨0, _⟩ => show win0_0.index t (0 : Fin 3) * 4 + 1 * b.val = win0_6.index t (0 : Fin 3) * 4 + b.val; omega
  | ⟨1, _⟩ => show win0_0.index t (1 : Fin 3) * 512 + 1 * r.val = r.val; omega
  | ⟨2, _⟩ => show win0_0.index t (2 : Fin 3) * 128 + 1 * k.val = k.val; omega

/-- A whole-array block at index 0 reads the whole array: window 1 (the gate's matrix). -/
theorem w_block1 (c : Dev nD) (t : Fin cfg0.N) : iblk m c 1 t = V m c main_arg1 := by
  obtain ⟨-, -, -, -, -, -, f10, f11, -⟩ := idx_facts t
  funext y
  show V m c main_arg1 (((cfg0.win 1).blk t).view.emb y) = V m c main_arg1 y
  refine congrArg (V m c main_arg1) ?_
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- Window 2 (the gate's bias) reads the whole array. -/
theorem w_block2 (c : Dev nD) (t : Fin cfg0.N) : iblk m c 2 t = V m c main_arg2 := by
  obtain ⟨-, -, -, -, -, -, -, -, f20, -⟩ := idx_facts t
  funext y
  show V m c main_arg2 (((cfg0.win 2).blk t).view.emb y) = V m c main_arg2 y
  refine congrArg (V m c main_arg2) ?_
  funext a; apply Fin.ext
  match a with
  | ⟨0, _⟩ => show win0_2.index t (0 : Fin 1) * 128 + 1 * (y 0).val = (y 0).val; omega

/-- Window 3 reads the whole array. -/
theorem w_block3 (c : Dev nD) (t : Fin cfg0.N) : iblk m c 3 t = V m c main_arg3 := by
  obtain ⟨-, -, -, -, -, -, -, -, -, f30, f31, -⟩ := idx_facts t
  funext y
  show V m c main_arg3 (((cfg0.win 3).blk t).view.emb y) = V m c main_arg3 y
  refine congrArg (V m c main_arg3) ?_
  funext a; apply Fin.ext
  match a with
  | ⟨0, _⟩ => show win0_3.index t (0 : Fin 2) * 128 + 1 * (y 0).val = (y 0).val; omega
  | ⟨1, _⟩ => show win0_3.index t (1 : Fin 2) * 64 + 1 * (y 1).val = (y 1).val; omega

/-- Window 4 reads the whole array. -/
theorem w_block4 (c : Dev nD) (t : Fin cfg0.N) : iblk m c 4 t = V m c main_arg4 := by
  obtain ⟨-, -, -, -, -, -, -, -, -, -, -, f40, f41, -⟩ := idx_facts t
  funext y
  show V m c main_arg4 (((cfg0.win 4).blk t).view.emb y) = V m c main_arg4 y
  refine congrArg (V m c main_arg4) ?_
  funext a; apply Fin.ext
  match a with
  | ⟨0, _⟩ => show win0_4.index t (0 : Fin 2) * 128 + 1 * (y 0).val = (y 0).val; omega
  | ⟨1, _⟩ => show win0_4.index t (1 : Fin 2) * 64 + 1 * (y 1).val = (y 1).val; omega

/-- Window 5 reads the whole array. -/
theorem w_block5 (c : Dev nD) (t : Fin cfg0.N) : iblk m c 5 t = V m c main_arg5 := by
  obtain ⟨-, -, -, -, -, -, -, -, -, -, -, -, -, f50, f51⟩ := idx_facts t
  funext y
  show V m c main_arg5 (((cfg0.win 5).blk t).view.emb y) = V m c main_arg5 y
  refine congrArg (V m c main_arg5) ?_
  funext a; apply Fin.ext
  match a with
  | ⟨0, _⟩ => show win0_5.index t (0 : Fin 2) * 128 + 1 * (y 0).val = (y 0).val; omega
  | ⟨1, _⟩ => show win0_5.index t (1 : Fin 2) * 64 + 1 * (y 1).val = (y 1).val; omega

end Cert.KernelIdeal.Cover

end
-- ==== Proof.SpecCongr.lean ====
/-
  The result for one batch entry depends only on that entry's rows of x: every quantity of the specification at
  batch entry b reads x at indices (b, t, c) only, so two inputs that agree on those rows (possibly at different
  batch extents and entries) give the same gate, projections, scores and result.
-/
import Idealize.ShloMosaic.Lib.ValueIdx
import proofs.«151258_j42262478193015_2_alg».proof.Proof.Spec

noncomputable section

open scoped BigOperators

namespace Cert.Math

open Idealize.ShloMosaic Idealize.ShloMosaic.ValueIdx

section

variable {nb nb' : ℕ} (X : Cert.Spec.A3 nb 512 128) (X' : Cert.Spec.A3 nb' 512 128)
  (Wg : Cert.Spec.A2 128 128) (Bg : Cert.Spec.A1 128) (b : Fin nb) (b' : Fin nb')
  (hX : ∀ (t : Fin 512) (c : Fin 128), X (ix3 b t c) = X' (ix3 b' t c))

include hX

theorem gateLin_congr (t : Fin 512) (c : Fin 128) :
    Cert.Spec.gateLin X Wg Bg b t c = Cert.Spec.gateLin X' Wg Bg b' t c := by
  unfold Cert.Spec.gateLin
  rw [Finset.sum_congr rfl (fun k _ => by rw [hX t k])]

theorem gated_congr (t : Fin 512) (c : Fin 128) :
    Cert.Spec.gated X Wg Bg b t c = Cert.Spec.gated X' Wg Bg b' t c := by
  unfold Cert.Spec.gated
  rw [hX t c, gateLin_congr X X' Wg Bg b b' hX t c]

theorem proj_congr (W : Cert.Spec.A2 128 64) (t : Fin 512) (h : Fin 64) :
    Cert.Spec.proj X Wg Bg W b t h = Cert.Spec.proj X' Wg Bg W b' t h := by
  unfold Cert.Spec.proj
  exact Finset.sum_congr rfl (fun c _ => by rw [gated_congr X X' Wg Bg b b' hX t c])

theorem scoreK_congr (Wk Wq : Cert.Spec.A2 128 64) (i j : Fin 512) :
    Cert.Spec.scoreK X Wg Bg Wk Wq b i j = Cert.Spec.scoreK X' Wg Bg Wk Wq b' i j := by
  unfold Cert.Spec.scoreK
  exact Finset.sum_congr rfl (fun h _ => by
    rw [proj_congr X X' Wg Bg b b' hX Wq i h, proj_congr X X' Wg Bg b b' hX Wk j h])

end

/-- The kernel's result at batch entry b is the same for two inputs that agree on that entry's rows. -/
theorem outK_congr {nb nb' : ℕ} (X : Cert.Spec.A3 nb 512 128) (X' : Cert.Spec.A3 nb' 512 128)
    (Wg : Cert.Spec.A2 128 128) (Bg : Cert.Spec.A1 128) (Wk Wq Wv : Cert.Spec.A2 128 64)
    (b : Fin nb) (b' : Fin nb')
    (hX : ∀ (t : Fin 512) (c : Fin 128), X (ix3 b t c) = X' (ix3 b' t c)) (i : Fin 512) (h : Fin 64) :
    Cert.Spec.outK X Wg Bg Wk Wq Wv b i h = Cert.Spec.outK X' Wg Bg Wk Wq Wv b' i h := by
  have e : Cert.Spec.scoreK X Wg Bg Wk Wq b = Cert.Spec.scoreK X' Wg Bg Wk Wq b' :=
    funext fun i => funext fun j => scoreK_congr X X' Wg Bg b b' hX Wk Wq i j
  unfold Cert.Spec.outK
  rw [e]
  congr 1
  exact Finset.sum_congr rfl (fun j _ => by rw [proj_congr X X' Wg Bg b b' hX Wv j h])

end Cert.Math

end
-- ==== Proof.KernelValue.lean ====
/-
  The kernel's result array as one function of the argument arrays.

  Grid point t owns the four batch entries 4·idx(t) … 4·idx(t)+3: its x block and its output block are those rows of
  x and of the result, the weights and the bias are whole arrays at every point. What the point leaves in its output
  block is the closed-form result of its own four-entry batch (`block_at`), and that only depends on the rows of x it
  holds, so it is the closed-form result of the whole batch read at the block's rows. The 32 blocks tile the
  result array, so the array ends holding `Spec.GK` of the arguments.
-/
import proofs.«151258_j42262478193015_2_alg».proof.Proof.KernelBlockAt
import proofs.«151258_j42262478193015_2_alg».proof.Proof.KernelCover
import proofs.«151258_j42262478193015_2_alg».proof.Proof.SpecCongr

set_option maxRecDepth 16384

noncomputable section

namespace Cert.KernelIdeal.ValueG

open Cert.KernelIdeal Cert.KernelIdeal.Gen Cert.KernelIdeal.Blk Cert.KernelIdeal.BlkMath Cert.KernelIdeal.Cover
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result array of the whole batch, of the arguments as the region finds them. -/
abbrev result (c : Dev nD) : S128x512x64.Idx → EReal :=
  Spec.GK (V m c main_arg0) (V m c main_arg1) (V m c main_arg2) (V m c main_arg3) (V m c main_arg4) (V m c main_arg5)

/-- At every index of point t's output block, the block function of the point's blocks is the whole batch's result
    at the array index the block places it at. -/
theorem point_eq (c : Dev nD) (t : Fin cfg0.N) (y : S4x512x64.Idx) :
    blockFn (F := Ideal) (k0_pay4 (F := Ideal) (iblk m c 0 t) (iblk m c 1 t) (iblk m c 2 t) (iblk m c 3 t))
        (k0_pay5 (F := Ideal) (iblk m c 0 t) (iblk m c 1 t) (iblk m c 2 t) (iblk m c 4 t))
        (k0_pay1 (F := Ideal) (k0_pay6 (F := Ideal) (iblk m c 0 t) (iblk m c 1 t) (iblk m c 2 t) (iblk m c 5 t))) y
      = result m c (((cfg0.win 6).blk t).view.emb y) := by
  obtain ⟨b, r, h, rfl⟩ : ∃ (b : Fin 4) (r : Fin 512) (h : Fin 64), y = ix3 b r h := ⟨y 0, y 1, y 2, eq_ix3 y⟩
  rw [block_at, out_index]
  show Spec.outK (iblk m c 0 t) (iblk m c 1 t) (iblk m c 2 t) (iblk m c 3 t) (iblk m c 4 t) (iblk m c 5 t) b r h
      = Spec.outK (V m c main_arg0) (V m c main_arg1) (V m c main_arg2) (V m c main_arg3) (V m c main_arg4)
          (V m c main_arg5) (row t b) r h
  rw [w_block1 m c t, w_block2 m c t, w_block3 m c t, w_block4 m c t, w_block5 m c t]
  exact Cert.Math.outK_congr _ _ _ _ _ _ _ b (row t b) (fun t' c' => x_block m c t b t' c') r h

/-- What point t writes back is block t of the result array. -/
theorem flushed_eq (c : Dev nD) (t : Fin cfg0.N) :
    (dats m 0 c).flushed 6 t = ((cfg0.win 6).blk t).view.read (Elt Ideal) (result m c) := by
  rw [Cert.KernelIdeal.Value.flushed6_A, out_eq_blockFn]
  funext j
  exact point_eq m c t j

/-- The 32 blocks tile the result array, so after the run it holds the closed-form result. -/
theorem final (c : Dev nD) : (dats m 0 c).arrAt 6 cfg0.N = result m c :=
  (dats m 0 c).arrAt_eq_of_cover 6 (result m c) (fun t _ => flushed_eq m c t) cover6

/-- The kernel's run with the result array named. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.ValueG

end
-- ==== Proof.LibColumnReads.lean ====
/-
  Reading a matrix column by column, and blocks with unit axes, at indices given by coordinates.

  The companions, along the FIRST axis, of the row forms: a reduction over the rows of an `[m, n]` array, read at
  column `c`, is the sum (or the fold of `max`) over `k : Fin m` of the entries `(k, c)`; the same readings for a
  reduction over the last or the middle axis of a rank-three array on the host side (the index with the coordinate put
  back); and two casts that drop the leading unit axis of a block: `[1, a, 1]` to the column `[a, 1]`, `[1, 1, b]` to
  the row `[1, b]`. The sums and folds hold on the extended reals, where a reduction has no order left in it.
-/
import Idealize.ShloMosaic.Lib.Pipeline.Value
import Idealize.ShloMosaic.Lib.ValueIdx
import Idealize.ShloMosaic.PureOps.Ideal.Laws

namespace Cert.ColumnReads

open Idealize.ShloMosaic Idealize.ShloMosaic.ValueIdx

variable {α : Type}

/-- Column `c` with the row coordinate `k` put back is the index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext a; apply Fin.ext
  fin_cases a <;> rfl

/-- A sum over the rows of an `[m, n]` array of extended reals, read at column `c`: the sum of that column's entries. -/
theorem multiReduction_add_col {m n : ℕ} {φ : FTy} (src : FVec Ideal ⟨2, ![m, n]⟩ φ) (acc : BitVec φ.bits)
    (h : (⟨2, ![m, n]⟩ : Shape).Reduces [0] (⟨1, ![n]⟩ : Shape)) (hφ : FKind.Formats φ) (hacc : acc = FKind.add.neutral φ hφ)
    (c : Fin n) :
    multiReduction .add [0] ⟨1, ![n]⟩ src acc h hφ hacc (ix1 c) = ∑ k : Fin m, src (ix2 k c) :=
  (Ideal.multiReduction_add_single src acc h hφ hacc (ix1 c)).trans
    (Finset.sum_congr rfl fun k _ => congrArg src (lift_col h c k))

/-- A maximum over the rows of an `[m, n]` array of extended reals, read at column `c`: the fold of `max`, from the
    accumulator's value, over that column's entries. -/
theorem multiReduction_maximumf_col {m n : ℕ} {φ : FTy} (src : FVec Ideal ⟨2, ![m, n]⟩ φ) (acc : BitVec φ.bits)
    (h : (⟨2, ![m, n]⟩ : Shape).Reduces [0] (⟨1, ![n]⟩ : Shape)) (hφ : FKind.Formats φ)
    (hacc : acc = FKind.maximumf.neutral φ hφ) (c : Fin n) :
    multiReduction .maximumf [0] ⟨1, ![n]⟩ src acc h hφ hacc (ix1 c)
      = (Finset.univ : Finset (Fin m)).fold max (Ideal.ofBits φ acc) (fun k => src (ix2 k c)) :=
  (Ideal.multiReduction_maximumf_single src acc h hφ hacc (ix1 c)).trans
    (congrArg (fun f => (Finset.univ : Finset (Fin m)).fold max (Ideal.ofBits φ acc) f)
      (funext fun k => congrArg src (lift_col h c k)))

/-- In a rank-three array, `(b, p)` with the last coordinate `k` put back is `(b, p, k)`. -/
theorem lift_last {l m n : ℕ} (h : (⟨3, ![l, m, n]⟩ : Shape).Reduces [2] (⟨2, ![l, m]⟩ : Shape)) (b : Fin l) (p : Fin m)
    (k : Fin ((⟨3, ![l, m, n]⟩ : Shape).size 2)) : h.lift (ix2 b p) k = ix3 b p (⟨k.val, k.isLt⟩ : Fin n) := by
  funext a; apply Fin.ext
  fin_cases a <;> rfl

/-- In a rank-three array, `(b, c)` with the middle coordinate `k` put back is `(b, k, c)`. -/
theorem lift_mid {l m n : ℕ} (h : (⟨3, ![l, m, n]⟩ : Shape).Reduces [1] (⟨2, ![l, n]⟩ : Shape)) (b : Fin l) (c : Fin n)
    (k : Fin ((⟨3, ![l, m, n]⟩ : Shape).size 1)) : h.lift (ix2 b c) k = ix3 b (⟨k.val, k.isLt⟩ : Fin m) c := by
  funext a; apply Fin.ext
  fin_cases a <;> rfl

/-- The host's maximum over the LAST axis of an `[l, m, n]` array of extended reals, read at `(b, p)`: the fold of
    `max` from the initial value over the entries `(b, p, k)`. -/
theorem hostReduce_maximumf_last {l m n : ℕ} {u : Shape} (x : FVec Ideal ⟨3, ![l, m, n]⟩ .f32) (init : u.Idx → Ideal .f32)
    (h' : (⟨3, ![l, m, n]⟩ : Shape).ReducesTo [2] (⟨2, ![l, m]⟩ : Shape))
    (h : (⟨3, ![l, m, n]⟩ : Shape).Reduces [2] (⟨2, ![l, m]⟩ : Shape)) (hu : 0 < u.numel) (b : Fin l) (p : Fin m) :
    Host.reduce FloatOps.maximumf x init h' hu (ix2 b p)
      = (Finset.univ : Finset (Fin n)).fold max (init (Shape.Idx.first hu)) (fun k => x (ix3 b p k)) :=
  (Host.reduce_eq_fold_single FloatOps.maximumf x init h' h hu (ix2 b p)).trans
    (congrArg (fun f => (Finset.univ : Finset (Fin n)).fold max (init (Shape.Idx.first hu)) f)
      (funext fun k => congrArg x (lift_last h b p k)))

/-- The host's maximum over the MIDDLE axis of an `[l, m, n]` array of extended reals, read at `(b, c)`: the fold of
    `max` from the initial value over the entries `(b, k, c)`. -/
theorem hostReduce_maximumf_mid {l m n : ℕ} {u : Shape} (x : FVec Ideal ⟨3, ![l, m, n]⟩ .f32) (init : u.Idx → Ideal .f32)
    (h' : (⟨3, ![l, m, n]⟩ : Shape).ReducesTo [1] (⟨2, ![l, n]⟩ : Shape))
    (h : (⟨3, ![l, m, n]⟩ : Shape).Reduces [1] (⟨2, ![l, n]⟩ : Shape)) (hu : 0 < u.numel) (b : Fin l) (c : Fin n) :
    Host.reduce FloatOps.maximumf x init h' hu (ix2 b c)
      = (Finset.univ : Finset (Fin m)).fold max (init (Shape.Idx.first hu)) (fun k => x (ix3 b k c)) :=
  (Host.reduce_eq_fold_single FloatOps.maximumf x init h' h hu (ix2 b c)).trans
    (congrArg (fun f => (Finset.univ : Finset (Fin m)).fold max (init (Shape.Idx.first hu)) f)
      (funext fun k => congrArg x (lift_mid h b c k)))

/-- A `[1, a, 1]` block cast to the column `[a, 1]` reads, at `(p, u)`, the block at `(0, p, 0)`. -/
theorem shapeCast_1a1_a1_apply {a : ℕ} (x : (⟨3, ![1, a, 1]⟩ : Shape).Idx → α)
    (h : (⟨3, ![1, a, 1]⟩ : Shape).ShapeCasts ⟨2, ![a, 1]⟩) (p : Fin a) (u : Fin 1) :
    shapeCast ⟨2, ![a, 1]⟩ x h (ix2 p u) = x (ix3 (0 : Fin 1) p (0 : Fin 1)) :=
  shapeCast_apply x h _ _ (by
    have hu : u.val = 0 := by omega
    rw [Shape.rowMajor_val_three, Shape.rowMajor_val_two]
    show (0 * a + p.val) * 1 + 0 = p.val * 1 + u.val
    omega)

/-- A `[1, 1, b]` block cast to the row `[1, b]` reads, at `(u, c)`, the block at `(0, 0, c)`. -/
theorem shapeCast_11b_1b_apply {b : ℕ} (x : (⟨3, ![1, 1, b]⟩ : Shape).Idx → α)
    (h : (⟨3, ![1, 1, b]⟩ : Shape).ShapeCasts ⟨2, ![1, b]⟩) (u : Fin 1) (c : Fin b) :
    shapeCast ⟨2, ![1, b]⟩ x h (ix2 u c) = x (ix3 (0 : Fin 1) (0 : Fin 1) c) :=
  shapeCast_apply x h _ _ (by
    have hu : u.val = 0 := by omega
    rw [Shape.rowMajor_val_three, Shape.rowMajor_val_two]
    show (0 * 1 + 0) * b + c.val = u.val * b + c.val
    rw [hu])

end Cert.ColumnReads
-- ==== Proof.RefRead.lean ====
/-
  The reference program read index by index: its result is the closed form `Cert.Spec.GR`.

  The program is a chain of array operations. Each stage below reads one of them at explicit coordinates — a batch
  entry b, positions t, i, j, a channel c, a head channel h — in terms of the stages before it, until the last one is
  the reference form of the result: the gate σ(x·Wg + bg) written as 1/(1 + exp(−z)), the gated input, its three
  projections, the scaled scores, the causal mask, the row maximum, the weights, their total, the normalised weights and
  the weighted sum of the values.
-/
import proofs.«151258_j42262478193015_2_alg».proof.Proof.Gen.ReferenceIdeal.Read
import proofs.«151258_j42262478193015_2_alg».proof.Proof.Spec
import proofs.«151258_j42262478193015_2_alg».proof.Proof.LibColumnReads
import proofs.«151258_j42262478193015_2_alg».proof.Proof.LibMaskBits
import Idealize.ShloMosaic.Lib.IdealHost

noncomputable section

open scoped BigOperators

namespace Cert.RefRead

open Idealize.ShloMosaic Idealize.ShloMosaic.ValueIdx Cert.ReferenceIdeal Cert.ReferenceIdeal.Gen Cert.ReferenceIdeal.Read Cert.Spec

/-- The word of −∞ denotes the bottom of the extended reals. -/
theorem ofBits_neg_inf : Ideal.ofBits .f32 0xFF800000#32 = (⊥ : EReal) := by
  simp [Ideal.ofBits, Ideal.ieee]

/-- The last axis of a 128×512×512 array reduces onto the 128×512 array of its rows. -/
theorem reduces_last : S128x512x512.Reduces [2] S128x512 := by decide

variable (x0 : (⟨S128x512x128, .f32⟩ : BufTy).Contents (Elt Ideal)) (x1 : (⟨S128x128, .f32⟩ : BufTy).Contents (Elt Ideal))
  (x2 : (⟨S128, .f32⟩ : BufTy).Contents (Elt Ideal)) (x3 x4 x5 : (⟨S128x64, .f32⟩ : BufTy).Contents (Elt Ideal))

/-! ## The gate -/

/-- The gate's argument: the first product plus the broadcast bias. -/
theorem lin_eq (b : Fin 128) (t : Fin 512) (c : Fin 128) :
    val_main_v3 (F := Ideal) x0 x1 x2 (ix3 b t c) = gateLin x0 x1 x2 b t c := by
  rw [val_main_v3_apply, val_main_v0_apply, val_main_v2_apply, val_main_v1_apply]
  have el : ∀ k : Fin 128, lidx_main_v0 (ix3 b t c) k = ix3 b t k := fun k =>
    funext fun a => match a with | ⟨0, _⟩ => rfl | ⟨1, _⟩ => rfl | ⟨2, _⟩ => rfl
  have er : ∀ k : Fin 128, ridx_main_v0 (ix3 b t c) k = ix2 k c := fun k =>
    funext fun a => match a with | ⟨0, _⟩ => rfl | ⟨1, _⟩ => rfl
  have eb : idx_main_v1 (idx_main_v2 (ix3 b t c)) = ix1 c :=
    funext fun a => match a with | ⟨0, _⟩ => rfl
  rw [eb, Finset.sum_congr rfl fun k _ => by rw [el k, er k]]
  rfl

/-- The gate: 1/(1 + exp(−z)) is the logistic function of the gate's argument. -/
theorem gate_eq (b : Fin 128) (t : Fin 512) (c : Fin 128) :
    val_main_v9 (F := Ideal) x0 x1 x2 (ix3 b t c) = Ideal.logistic (gateLin x0 x1 x2 b t c) := by
  rw [val_main_v9_apply, val_main_v8_apply, val_main_cst_0_apply, val_main_v7_apply, val_main_v6_apply,
    val_main_cst_apply, val_main_v5_apply, val_main_v4_apply, lin_eq]
  simp only [Ideal.ofBits_def, Ideal.ofBits_one_f32, Ideal.hostDivf_def, Ideal.addf_def, Ideal.hostUnary_exp_def,
    Ideal.hostNegf_def, Ideal.negf_def]
  rfl

/-- The gated input. -/
theorem gated_eq (b : Fin 128) (t : Fin 512) (c : Fin 128) :
    val_main_v10 (F := Ideal) x0 x1 x2 (ix3 b t c) = gated x0 x1 x2 b t c := by
  rw [val_main_v10_apply, gate_eq]
  rfl

/-! ## The three projections -/

/-- The keys: the gated input against the first 128×64 matrix. -/
theorem keys_eq (b : Fin 128) (t : Fin 512) (h : Fin 64) :
    val_main_v11 (F := Ideal) x0 x1 x2 x3 (ix3 b t h) = proj x0 x1 x2 x3 b t h := by
  rw [val_main_v11_apply]
  have el : ∀ k : Fin 128, lidx_main_v11 (ix3 b t h) k = ix3 b t k := fun k =>
    funext fun a => match a with | ⟨0, _⟩ => rfl | ⟨1, _⟩ => rfl | ⟨2, _⟩ => rfl
  have er : ∀ k : Fin 128, ridx_main_v11 (ix3 b t h) k = ix2 k h := fun k =>
    funext fun a => match a with | ⟨0, _⟩ => rfl | ⟨1, _⟩ => rfl
  rw [Finset.sum_congr rfl fun k _ => by rw [el k, er k, gated_eq]]
  rfl

/-- The queries: the gated input against the second 128×64 matrix. -/
theorem queries_eq (b : Fin 128) (t : Fin 512) (h : Fin 64) :
    val_main_v12 (F := Ideal) x0 x1 x2 x4 (ix3 b t h) = proj x0 x1 x2 x4 b t h := by
  rw [val_main_v12_apply]
  have el : ∀ k : Fin 128, lidx_main_v12 (ix3 b t h) k = ix3 b t k := fun k =>
    funext fun a => match a with | ⟨0, _⟩ => rfl | ⟨1, _⟩ => rfl | ⟨2, _⟩ => rfl
  have er : ∀ k : Fin 128, ridx_main_v12 (ix3 b t h) k = ix2 k h := fun k =>
    funext fun a => match a with | ⟨0, _⟩ => rfl | ⟨1, _⟩ => rfl
  rw [Finset.sum_congr rfl fun k _ => by rw [el k, er k, gated_eq]]
  rfl

/-- The values: the gated input against the third 128×64 matrix. -/
theorem values_eq (b : Fin 128) (t : Fin 512) (h : Fin 64) :
    val_main_v13 (F := Ideal) x0 x1 x2 x5 (ix3 b t h) = proj x0 x1 x2 x5 b t h := by
  rw [val_main_v13_apply]
  have el : ∀ k : Fin 128, lidx_main_v13 (ix3 b t h) k = ix3 b t k := fun k =>
    funext fun a => match a with | ⟨0, _⟩ => rfl | ⟨1, _⟩ => rfl | ⟨2, _⟩ => rfl
  have er : ∀ k : Fin 128, ridx_main_v13 (ix3 b t h) k = ix2 k h := fun k =>
    funext fun a => match a with | ⟨0, _⟩ => rfl | ⟨1, _⟩ => rfl
  rw [Finset.sum_congr rfl fun k _ => by rw [el k, er k, gated_eq]]
  rfl

/-! ## The scores -/

/-- The score of query row i against key row j: the product over the head channels, then the scale. -/
theorem score_eq (b : Fin 128) (i j : Fin 512) :
    val_main_v16 (F := Ideal) x0 x1 x2 x3 x4 (ix3 b i j) = scoreR x0 x1 x2 x3 x4 b i j := by
  rw [val_main_v16_apply, val_main_v14_apply, val_main_v15_apply, val_main_cst_1_apply]
  have el : ∀ k : Fin 64, lidx_main_v14 (ix3 b i j) k = ix3 b i k := fun k =>
    funext fun a => match a with | ⟨0, _⟩ => rfl | ⟨1, _⟩ => rfl | ⟨2, _⟩ => rfl
  have er : ∀ k : Fin 64, ridx_main_v14 (ix3 b i j) k = ix3 b j k := fun k =>
    funext fun a => match a with | ⟨0, _⟩ => rfl | ⟨1, _⟩ => rfl | ⟨2, _⟩ => rfl
  rw [Finset.sum_congr rfl fun k _ => by rw [el k, er k, queries_eq, keys_eq]]
  rfl

/-! ## The causal mask -/

/-- The lower-triangle bit at (i, j): 1 when j ≤ i, else 0. -/
theorem tril_eq (i j : Fin 512) :
    val_main_v18 (F := Ideal) (ix2 i j) = if j.val ≤ i.val then 1#1 else 0#1 := by
  rw [val_main_v18_apply, val_main_call0_v4_apply, val_main_call0_v2_apply, val_main_call0_v0_apply,
    val_main_call0_v1_apply, val_main_call0_c_apply, val_main_call0_v3_apply, val_main_v17_apply, val_main_c_apply,
    val_main_call0_v5_apply, val_main_call0_c_0_apply, MaskBits.addi_zero]
  show Scalar.select (IntOp.cmpi .sge (BitVec.ofNat 32 i.val) (BitVec.ofNat 32 j.val)) 1#1 0#1 = _
  rw [MaskBits.sge_ofNat i.val j.val i.isLt j.isLt, MaskBits.select_bit]

/-- The masked scores: column j of row i is kept when j ≤ i, else −∞. -/
theorem mask_eq (b : Fin 128) (i j : Fin 512) :
    val_main_v19 (F := Ideal) x0 x1 x2 x3 x4 (ix3 b i j) = causal (scoreR x0 x1 x2 x3 x4 b) i j := by
  rw [val_main_v19_apply, val_main_call1_v1_apply, val_main_call1_v2_apply, val_main_call1_v0_apply,
    val_main_cst_2_apply, score_eq]
  have e : idx_main_call1_v1 (ix3 b i j) = ix2 i j :=
    funext fun a => match a with | ⟨0, _⟩ => rfl | ⟨1, _⟩ => rfl
  rw [e, tril_eq, MaskBits.select_bit, Ideal.ofBits_def, ofBits_neg_inf]
  rfl

/-! ## The row maximum and the weights -/

/-- The maximum of row i of the masked scores. -/
theorem rowmax_eq (b : Fin 128) (i : Fin 512) :
    val_main_v22 (F := Ideal) x0 x1 x2 x3 x4 (ix2 b i)
      = (Finset.univ : Finset (Fin 512)).fold max ⊥ (causal (scoreR x0 x1 x2 x3 x4 b) i) := by
  rw [val_main_v22_apply, val_main_v21_apply, val_main_cst_4_apply, Ideal.ofBits_def, ofBits_neg_inf]
  have e20 : val_main_v20 (F := Ideal) x0 x1 x2 x3 x4 (ix2 b i)
      = (Finset.univ : Finset (Fin 512)).fold max ⊥ (causal (scoreR x0 x1 x2 x3 x4 b) i) := by
    unfold val_main_v20
    rw [ColumnReads.hostReduce_maximumf_last _ _ reducesTo_S128x512x512_S128x512_d2 reduces_last h_S_ b i,
      val_main_cst_3_apply, Ideal.ofBits_def, ofBits_neg_inf]
    exact congrArg (fun f => (Finset.univ : Finset (Fin 512)).fold max ⊥ f)
      (funext fun k => mask_eq x0 x1 x2 x3 x4 b i k)
  rw [e20, Ideal.maximumf_def]
  exact max_eq_right bot_le

/-- The weights of row i: each masked score minus the row's maximum, exponentiated. -/
theorem weights_eq (b : Fin 128) (i j : Fin 512) :
    val_main_v26 (F := Ideal) x0 x1 x2 x3 x4 (ix3 b i j)
      = weights (causal (scoreR x0 x1 x2 x3 x4 b) i) j := by
  rw [val_main_v26_apply, val_main_v25_apply, val_main_v24_apply, val_main_v23_apply, mask_eq]
  have e : idx_main_v23 (idx_main_v24 (ix3 b i j)) = ix2 b i :=
    funext fun a => match a with | ⟨0, _⟩ => rfl | ⟨1, _⟩ => rfl
  rw [e, rowmax_eq]
  rfl

/-- The total of row i's weights. -/
theorem total_eq (b : Fin 128) (i : Fin 512) :
    val_main_v27 (F := Ideal) x0 x1 x2 x3 x4 (ix2 b i)
      = ∑ j : Fin 512, weights (causal (scoreR x0 x1 x2 x3 x4 b) i) j := by
  rw [val_main_v27_apply, val_main_cst_5_apply, Ideal.ofBits_def, Ideal.ofBits_zero_f32, zero_add]
  refine Finset.sum_congr rfl fun k _ => ?_
  have e : idx_main_v27 (ix2 b i) k = ix3 b i k :=
    funext fun a => match a with | ⟨0, _⟩ => rfl | ⟨1, _⟩ => rfl | ⟨2, _⟩ => rfl
  rw [e, weights_eq]

/-- The normalised weights: each weight over the row's total. -/
theorem normalised_eq (b : Fin 128) (i j : Fin 512) :
    val_main_v30 (F := Ideal) x0 x1 x2 x3 x4 (ix3 b i j)
      = Ideal.div (weights (causal (scoreR x0 x1 x2 x3 x4 b) i) j)
          (∑ j' : Fin 512, weights (causal (scoreR x0 x1 x2 x3 x4 b) i) j') := by
  rw [val_main_v30_apply, val_main_v29_apply, val_main_v28_apply, weights_eq]
  have e : idx_main_v28 (idx_main_v29 (ix3 b i j)) = ix2 b i :=
    funext fun a => match a with | ⟨0, _⟩ => rfl | ⟨1, _⟩ => rfl
  rw [e, total_eq]
  rfl

/-! ## The result -/

/-- The result at (b, i, h): the normalised weights of row i against column h of the values. -/
theorem result_eq (b : Fin 128) (i : Fin 512) (h : Fin 64) :
    val_main_v31 (F := Ideal) x0 x1 x2 x3 x4 x5 (ix3 b i h) = outR x0 x1 x2 x3 x4 x5 b i h := by
  rw [val_main_v31_apply]
  have el : ∀ k : Fin 512, lidx_main_v31 (ix3 b i h) k = ix3 b i k := fun k =>
    funext fun a => match a with | ⟨0, _⟩ => rfl | ⟨1, _⟩ => rfl | ⟨2, _⟩ => rfl
  have er : ∀ k : Fin 512, ridx_main_v31 (ix3 b i h) k = ix3 b k h := fun k =>
    funext fun a => match a with | ⟨0, _⟩ => rfl | ⟨1, _⟩ => rfl | ⟨2, _⟩ => rfl
  rw [Finset.sum_congr rfl fun k _ => by rw [el k, er k, normalised_eq, values_eq]]
  rfl

/-- The reference program's result is the closed form `GR`. -/
theorem ref_eq_GR :
    val_main_v31 (F := Ideal) x0 x1 x2 x3 x4 x5 = GR x0 x1 x2 x3 x4 x5 := by
  funext y
  obtain ⟨b, i, h, rfl⟩ : ∃ (b : Fin 128) (i : Fin 512) (h : Fin 64), y = ix3 b i h :=
    ⟨y 0, y 1, y 2, eq_ix3 (n0 := 128) (n1 := 512) (n2 := 64) y⟩
  exact result_eq x0 x1 x2 x3 x4 x5 b i h

end Cert.RefRead

end
-- ==== Proof.PreReal.lean ====
/-
  The precondition read back. The program `finite_inputs` answers 1 when, for each of the six float inputs, the
  conjunction over all elements of |x| < +∞ is 1; so its answering 1 says that every element of every input
  is a real number.
-/
import Idealize.ShloMosaic.Lib.ReduceAll
import Idealize.ShloMosaic.Lib.ValueIdx
import proofs.«151258_j42262478193015_2_alg».proof.Pre_finite_inputs
import proofs.«151258_j42262478193015_2_alg».proof.Proof.Math

noncomputable section

namespace Cert.PreReal

open Idealize.ShloMosaic Idealize.ShloMosaic.ValueIdx Cert.Math

/-- The shape of rank 0 has one index. -/
instance : Subsingleton (⟨0, ![]⟩ : Shape).Idx := ⟨fun a b => funext fun d => d.elim0⟩

/-- One input: when the conjunction over all elements of |a i| < +∞ is 1, every element is real. The
    conjunction being 1 makes each comparison 1; the compared constant is the word of +∞ read everywhere;
    and an extended real whose absolute value is below +∞ is real. -/
theorem real_of_all_abs_lt_inf {s : Shape} {axes : List (Fin s.rank)} (a : FVec Ideal s .f32)
    (hb : (⟨0, ![]⟩ : Shape).BroadcastsInDim s ![]) (hr : s.ReducesTo axes ⟨0, ![]⟩)
    (hu : 0 < (⟨0, ![]⟩ : Shape).numel)
    (h : Host.reduce IntOp.andi
        (cmpf .olt (Host.absf a)
          (broadcastInDim s ![] hb (constant (F := Ideal) ⟨0, ![]⟩ .f32 0x7F800000#32)))
        (constantI ⟨0, ![]⟩ 1 1#1) hr hu ix0 = 1#1) :
    ∀ i, IsReal (a i) := by
  intro i
  have e := Host.reduce_andi_all _ _ hr hu ix0 h i
  have e' : Ideal.cmp .olt (max (a i) (-(a i))) (Ideal.ofBits .f32 0x7F800000#32) = 1#1 := by
    rw [← e]
    show _ = Ideal.cmp .olt (max (a i) (-(a i)))
      (broadcastInDim s ![] hb (constant (F := Ideal) ⟨0, ![]⟩ .f32 0x7F800000#32) i)
    rw [broadcastInDim_scalar_apply]; rfl
  rw [ofBits_inf] at e'
  apply isReal_of_abs_lt_top
  unfold Ideal.cmp at e'
  by_contra hn
  simp [hn] at e'

open Cert.Pre_finite_inputs in
/-- The precondition's program answering 1 makes all six inputs real. -/
theorem inputs_real [Cert.Pre_finite_inputs.Facts]
    (a0 : FVec Ideal Cert.Pre_finite_inputs.S128x512x128 .f32)
    (a1 : FVec Ideal Cert.Pre_finite_inputs.S128x128 .f32)
    (a2 : FVec Ideal Cert.Pre_finite_inputs.S128 .f32)
    (a3 a4 a5 : FVec Ideal Cert.Pre_finite_inputs.S128x64 .f32)
    (h : Cert.Pre_finite_inputs.fn (F := Ideal) a0 a1 a2 a3 a4 a5 = fun _ => 1#1) :
    (∀ i, Cert.Math.IsReal (a0 i)) ∧ (∀ i, Cert.Math.IsReal (a1 i)) ∧ (∀ i, Cert.Math.IsReal (a2 i)) ∧
      (∀ i, Cert.Math.IsReal (a3 i)) ∧ (∀ i, Cert.Math.IsReal (a4 i)) ∧ (∀ i, Cert.Math.IsReal (a5 i)) := by
  have h0 := congrFun h ix0
  unfold Cert.Pre_finite_inputs.fn Cert.Pre_finite_inputs.fn_part1 at h0
  dsimp only at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨real_of_all_abs_lt_inf a0 _ _ _ h0', real_of_all_abs_lt_inf a1 _ _ _ h1,
    real_of_all_abs_lt_inf a2 _ _ _ h2, real_of_all_abs_lt_inf a3 _ _ _ h3,
    real_of_all_abs_lt_inf a4 _ _ _ h4, real_of_all_abs_lt_inf a5 _ _ _ h5⟩

end Cert.PreReal

end
-- ==== Proof.lean ====
/-
  Gated self-attention head: the kernel against its reference, on the extended reals.

  Both programs compute, for each batch entry, the gated input x·σ(x·Wg + bg), its key, query and value
  projections, causal scores scaled by the float nearest 128^(-1/2), a softmax along each row, and the weighted sum
  of the values. The kernel works on blocks of four entries, fills its masked scores with a large negative float that
  the idealization names −∞, scales the queries before the score product and divides the weighted sum by the row's
  total; the reference scales the finished scores and divides each weight first. On real (finite) inputs every
  intermediate value up to the scores is real, so the scale moves across the finite sum; a masked row has no +∞
  and a real diagonal entry, so its weights are reals with a positive total and the division moves across the sum.

  `Spec.lean` states the two closed forms, `Math.lean` proves them equal on real inputs, `PreReal.lean` reads
  the precondition as "every input entry is real", `RefRead.lean` reads the reference's run as its closed form,
  and `KernelBlock` / `KernelMath` / `KernelAttn` / `KernelBlockAt` / `KernelCover` / `KernelValue` read the
  kernel's run: what one grid point leaves in its block, that block index by index, and the 32 blocks tiling the array.
  The three frames are the generated runs; the idealization's one rewrite is the named fill constant.
-/
import proofs.«151258_j42262478193015_2_alg».proof.Defs
import proofs.«151258_j42262478193015_2_alg».proof.Proof.Gen.Kernel
import proofs.«151258_j42262478193015_2_alg».proof.Proof.Gen.Kernel.Skeleton
import proofs.«151258_j42262478193015_2_alg».proof.Proof.Gen.Kernel.Loops
import proofs.«151258_j42262478193015_2_alg».proof.Proof.Gen.Kernel.Launch
import proofs.«151258_j42262478193015_2_alg».proof.Proof.Gen.Kernel.Points
import proofs.«151258_j42262478193015_2_alg».proof.Proof.Gen.Kernel.Frame
import proofs.«151258_j42262478193015_2_alg».proof.Proof.Gen.KernelIdeal
import proofs.«151258_j42262478193015_2_alg».proof.Proof.Gen.KernelIdeal.Skeleton
import proofs.«151258_j42262478193015_2_alg».proof.Proof.Gen.KernelIdeal.Loops
import proofs.«151258_j42262478193015_2_alg».proof.Proof.Gen.KernelIdeal.Launch
import proofs.«151258_j42262478193015_2_alg».proof.Proof.Gen.KernelIdeal.Points
import proofs.«151258_j42262478193015_2_alg».proof.Proof.Gen.KernelIdeal.Frame
import proofs.«151258_j42262478193015_2_alg».proof.Proof.Gen.ReferenceIdeal
import proofs.«151258_j42262478193015_2_alg».proof.Proof.Gen.Pre_finite_inputs
import proofs.«151258_j42262478193015_2_alg».proof.Proof.Gen.KernelIdeal.Value
import proofs.«151258_j42262478193015_2_alg».proof.Proof.Gen.ReferenceIdeal.Run
import proofs.«151258_j42262478193015_2_alg».proof.Proof.Gen.ReferenceIdeal.Read
import proofs.«151258_j42262478193015_2_alg».proof.Proof.KernelValue
import proofs.«151258_j42262478193015_2_alg».proof.Proof.RefRead
import proofs.«151258_j42262478193015_2_alg».proof.Proof.Math
import proofs.«151258_j42262478193015_2_alg».proof.Proof.PreReal
import Idealize.ShloMosaic.PureOps.IdealRules
import Idealize.ShloMosaic.Adequacy
import Idealize.ShloMosaic.Init

noncomputable section

namespace Cert.Proof

open Idealize.ShloMosaic Idealize.SL.Sem Cert.Kernel

/-- The word-level kernel runs and leaves its arguments alone (the generated frame). -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization's one rewrite: the mask's finite fill value is named, and the name denotes −∞. -/
theorem preserves : Cert.preserves_Kernel_KernelIdeal :=
  IdealRules.named_const.statement Cert.KernelIdeal.κ "neg_big" .f32 0xF149F2CA#32 ⊥ rfl

/-- From memories agreeing on finite arguments, the kernel's result array is the kernel-form closed formula of the
    arguments and the reference's is the reference-form one; on real inputs the two formulas are one function. -/
theorem algebraic : Cert.algebraic_KernelIdeal_ReferenceIdeal := by
  intro m ρ m' ρ' hpre hagree
  refine ⟨fun c => Cert.KernelIdeal.ValueG.result m c, Cert.KernelIdeal.ValueG.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := Cert.PreReal.inputs_real _ _ _ _ _ _ (hpre c)
  rw [Cert.ReferenceIdeal.Read.val_main_v31_eq, Cert.RefRead.ref_eq_GR, (hagree c).1, (hagree c).2.1,
    (hagree c).2.2.1, (hagree c).2.2.2.1, (hagree c).2.2.2.2.1, (hagree c).2.2.2.2.2]
  exact Cert.Math.GR_eq_GK _ _ _ _ _ _ h0 h1 h2 h3 h4 h5

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
